-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)) (v2 : (c : Dev Cert.KernelIdeal.nD) → Buf (Elt Ideal) ((c.tc : Thread Cert.KernelIdeal.nD Cert.KernelIdeal.τ).loc Cert.KernelIdeal.main_v82_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_v82_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S21x128 : Shape := ⟨2, ![21, 128]⟩
abbrev S21 : Shape := ⟨1, ![21]⟩
abbrev S2x128 : Shape := ⟨2, ![2, 128]⟩
abbrev S2 : Shape := ⟨1, ![2]⟩
abbrev S5x128 : Shape := ⟨2, ![5, 128]⟩
abbrev S5 : Shape := ⟨1, ![5]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S21x128 : S_.BroadcastsInDim S21x128 (![] : Fin 0 → Fin S21x128.rank)
  reducesTo_S21x128_S_d0_1 : S21x128.ReducesTo [0, 1] S_
  bcast_S_S21 : S_.BroadcastsInDim S21 (![] : Fin 0 → Fin S21.rank)
  reducesTo_S21_S_d0 : S21.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_

variable [Facts]

def fn_part5 {F : FTy → Type} [FloatOps F] (main_arg19 : FVec F S5 .f32) (main_v83 : IVec S_ 1) (main_v84 : FVec F S5x128 .f32) (main_cst_32 : FVec F S_ .f32) : IVec S_ 1 :=
  let main_v85 : FVec F S5x128 .f32 := broadcastInDim S5x128 ![] bcast_S_S5x128 main_cst_32
  let main_v86 : IVec S5x128 1 := cmpf .olt main_v84 main_v85
  let main_c_33 : IVec S_ 1 := constantI S_ 1 1#1
  let main_v87 : IVec S_ 1 := (fun x v => Host.reduce IntOp.andi x v reducesTo_S5x128_S_d0_1 h_S_) main_v86 main_c_33
  let main_v88 : IVec S_ 1 := andi main_v83 main_v87
  let main_v89 : FVec F S5 .f32 := Host.absf main_arg19
  let main_cst_34 : FVec F S_ .f32 := constant S_ .f32 0x7F800000#32
  let main_v90 : FVec F S5 .f32 := broadcastInDim S5 ![] bcast_S_S5 main_cst_34
  let main_v91 : IVec S5 1 := cmpf .olt main_v89 main_v90
  let main_c_35 : IVec S_ 1 := constantI S_ 1 1#1
  let main_v92 : IVec S_ 1 := (fun x v => Host.reduce IntOp.andi x v reducesTo_S5_S_d0 h_S_) main_v91 main_c_35
  let main_v93 : IVec S_ 1 := andi main_v88 main_v92
  main_v93

def fn_part4 {F : FTy → Type} [FloatOps F] (main_arg15 : FVec F S2x128 .f32) (main_arg16 : FVec F S2 .f32) (main_arg17 : FVec F S5x128 .f32) (main_arg18 : FVec F S5x128 .f32) (main_arg19 : FVec F S5 .f32) (main_v63 : IVec S_ 1) (main_v67 : IVec S_ 1) : IVec S_ 1 :=
  let main_v68 : IVec S_ 1 := andi main_v63 main_v67
  let main_v69 : FVec F S2x128 .f32 := Host.absf main_arg15
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : FVec F S5x128 .f32 := Host.absf main_arg17
  let main_cst_30 : FVec F S_ .f32 := constant S_ .f32 0x7F800000#32
  let main_v80 : FVec F S5x128 .f32 := broadcastInDim S5x128 ![] bcast_S_S5x128 main_cst_30
  let main_v81 : IVec S5x128 1 := cmpf .olt main_v79 main_v80
  let main_c_31 : IVec S_ 1 := constantI S_ 1 1#1
  let main_v82 : IVec S_ 1 := (fun x v => Host.reduce IntOp.andi x v reducesTo_S5x128_S_d0_1 h_S_) main_v81 main_c_31
  let main_v83 : IVec S_ 1 := andi main_v78 main_v82
  let main_v84 : FVec F S5x128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S21x128 .f32) (main_arg13 : FVec F S21 .f32) (main_arg14 : FVec F S2x128 .f32) (main_arg15 : FVec F S2x128 .f32) (main_arg16 : FVec F S2 .f32) (main_arg17 : FVec F S5x128 .f32) (main_arg18 : FVec F S5x128 .f32) (main_arg19 : FVec F S5 .f32) (main_v48 : IVec S_ 1) (main_v49 : FVec F S21x128 .f32) (main_v50 : FVec F S21x128 .f32) : IVec S_ 1 :=
  let main_v51 : IVec S21x128 1 := cmpf .olt main_v49 main_v50
  let main_c_19 : IVec S_ 1 := constantI S_ 1 1#1
  let main_v52 : IVec S_ 1 := (fun x v => Host.reduce IntOp.andi x v reducesTo_S21x128_S_d0_1 h_S_) main_v51 main_c_19
  let main_v53 : IVec S_ 1 := andi main_v48 main_v52
  let main_v54 : FVec F S21x128 .f32 := Host.absf main_arg12
  let main_cst_20 : FVec F S_ .f32 := constant S_ .f32 0x7F800000#32
  let main_v55 : FVec F S21x128 .f32 := broadcastInDim S21x128 ![] bcast_S_S21x128 main_cst_20
  let main_v56 : IVec S21x128 1 := cmpf .olt main_v54 main_v55
  let main_c_21 : IVec S_ 1 := constantI S_ 1 1#1
  let main_v57 : IVec S_ 1 := (fun x v => Host.reduce IntOp.andi x v reducesTo_S21x128_S_d0_1 h_S_) main_v56 main_c_21
  let main_v58 : IVec S_ 1 := andi main_v53 main_v57
  let main_v59 : FVec F S21 .f32 := Host.absf main_arg13
  let main_cst_22 : FVec F S_ .f32 := constant S_ .f32 0x7F800000#32
  let main_v60 : FVec F S21 .f32 := broadcastInDim S21 ![] bcast_S_S21 main_cst_22
  let main_v61 : IVec S21 1 := cmpf .olt main_v59 main_v60
  let main_c_23 : IVec S_ 1 := constantI S_ 1 1#1
  let main_v62 : IVec S_ 1 := (fun x v => Host.reduce IntOp.andi x v reducesTo_S21_S_d0 h_S_) main_v61 main_c_23
  let main_v63 : IVec S_ 1 := andi main_v58 main_v62
  let main_v64 : FVec F S2x128 .f32 := Host.absf main_arg14
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg15 main_arg16 main_arg17 main_arg18 main_arg19 main_v63 main_v67

def fn_part2 {F : FTy → Type} [FloatOps F] (main_arg8 : FVec F S128x128 .f32) (main_arg9 : FVec F S128x128 .f32) (main_arg10 : FVec F S128 .f32) (main_arg11 : FVec F S21x128 .f32) (main_arg12 : FVec F S21x128 .f32) (main_arg13 : FVec F S21 .f32) (main_arg14 : FVec F S2x128 .f32) (main_arg15 : FVec F S2x128 .f32) (main_arg16 : FVec F S2 .f32) (main_arg17 : FVec F S5x128 .f32) (main_arg18 : FVec F S5x128 .f32) (main_arg19 : FVec F S5 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S21x128 .f32 := Host.absf main_arg11
  let main_cst_18 : FVec F S_ .f32 := constant S_ .f32 0x7F800000#32
  let main_v50 : FVec F S21x128 .f32 := broadcastInDim S21x128 ![] bcast_S_S21x128 main_cst_18
  fn_part3 (F := F) main_arg12 main_arg13 main_arg14 main_arg15 main_arg16 main_arg17 main_arg18 main_arg19 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S21x128 .f32) (main_arg12 : FVec F S21x128 .f32) (main_arg13 : FVec F S21 .f32) (main_arg14 : FVec F S2x128 .f32) (main_arg15 : FVec F S2x128 .f32) (main_arg16 : FVec F S2 .f32) (main_arg17 : FVec F S5x128 .f32) (main_arg18 : FVec F S5x128 .f32) (main_arg19 : FVec F S5 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S21x128 .f32) (main_arg12 : FVec F S21x128 .f32) (main_arg13 : FVec F S21 .f32) (main_arg14 : FVec F S2x128 .f32) (main_arg15 : FVec F S2x128 .f32) (main_arg16 : FVec F S2 .f32) (main_arg17 : FVec F S5x128 .f32) (main_arg18 : FVec F S5x128 .f32) (main_arg19 : FVec F S5 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S21x128 : Shape := ⟨2, ![21, 128]⟩
abbrev S21 : Shape := ⟨1, ![21]⟩
abbrev S2x128 : Shape := ⟨2, ![2, 128]⟩
abbrev S2 : Shape := ⟨1, ![2]⟩
abbrev S5x128 : Shape := ⟨2, ![5, 128]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S5000x128 : Shape := ⟨2, ![5000, 128]⟩
abbrev S128x21 : Shape := ⟨2, ![128, 21]⟩
abbrev S128x2 : Shape := ⟨2, ![128, 2]⟩
abbrev S128x5 : Shape := ⟨2, ![128, 5]⟩
abbrev S1x21 : Shape := ⟨2, ![1, 21]⟩
abbrev S1x2 : Shape := ⟨2, ![1, 2]⟩
abbrev S1x5 : Shape := ⟨2, ![1, 5]⟩
abbrev S50000x21 : Shape := ⟨2, ![50000, 21]⟩
abbrev S50000x2 : Shape := ⟨2, ![50000, 2]⟩
abbrev S50000x5 : Shape := ⟨2, ![50000, 5]⟩
abbrev S5000x21 : Shape := ⟨2, ![5000, 21]⟩
abbrev S5000x2 : Shape := ⟨2, ![5000, 2]⟩
abbrev S5000x5 : Shape := ⟨2, ![5000, 5]⟩

abbrev nBuf : Space → Nat
  | .hbm => 121
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S21x128, .f32⟩
  | .hbm, ⟨12, _⟩ => ⟨S21x128, .f32⟩
  | .hbm, ⟨13, _⟩ => ⟨S21, .f32⟩
  | .hbm, ⟨14, _⟩ => ⟨S2x128, .f32⟩
  | .hbm, ⟨15, _⟩ => ⟨S2x128, .f32⟩
  | .hbm, ⟨16, _⟩ => ⟨S2, .f32⟩
  | .hbm, ⟨17, _⟩ => ⟨S5x128, .f32⟩
  | .hbm, ⟨18, _⟩ => ⟨S5x128, .f32⟩
  | .hbm, ⟨19, _⟩ => ⟨S5, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S50000, .f32⟩
  | .hbm, ⟨28, _⟩ => ⟨S1600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S50000x128, .f32⟩
  | .hbm, ⟨67, _⟩ => ⟨S1600000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S50000x128, .f32⟩
  | .hbm, ⟨86, _⟩ => ⟨S1600000x1, .i32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S128x128, .f32⟩
  | .hbm, ⟨91, _⟩ => ⟨S128x128, .f32⟩
  | .hbm, ⟨92, _⟩ => ⟨S1x128, .f32⟩
  | .hbm, ⟨93, _⟩ => ⟨S50000x128, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x128, .f32⟩
  | .hbm, ⟨103, _⟩ => ⟨S_, .f32⟩
  | .hbm, ⟨104, _⟩ => ⟨S50000x128, .f32⟩
  | .hbm, ⟨105, _⟩ => ⟨S1600000x1, .i32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S128x21, .f32⟩
  | .hbm, ⟨110, _⟩ => ⟨S128x21, .f32⟩
  | .hbm, ⟨111, _⟩ => ⟨S128x2, .f32⟩
  | .hbm, ⟨112, _⟩ => ⟨S128x2, .f32⟩
  | .hbm, ⟨113, _⟩ => ⟨S128x5, .f32⟩
  | .hbm, ⟨114, _⟩ => ⟨S128x5, .f32⟩
  | .hbm, ⟨115, _⟩ => ⟨S1x21, .f32⟩
  | .hbm, ⟨116, _⟩ => ⟨S1x2, .f32⟩
  | .hbm, ⟨117, _⟩ => ⟨S1x5, .f32⟩
  | .hbm, ⟨118, _⟩ => ⟨S50000x21, .f32⟩
  | .hbm, ⟨119, _⟩ => ⟨S50000x2, .f32⟩
  | .hbm, ⟨120, _⟩ => ⟨S50000x5, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x21, .f32⟩
  | .local _ .vmem, ⟨32, _⟩ => ⟨S128x21, .f32⟩
  | .local _ .vmem, ⟨33, _⟩ => ⟨S1x21, .f32⟩
  | .local _ .vmem, ⟨34, _⟩ => ⟨S128x2, .f32⟩
  | .local _ .vmem, ⟨35, _⟩ => ⟨S128x2, .f32⟩
  | .local _ .vmem, ⟨36, _⟩ => ⟨S1x2, .f32⟩
  | .local _ .vmem, ⟨37, _⟩ => ⟨S128x5, .f32⟩
  | .local _ .vmem, ⟨38, _⟩ => ⟨S128x5, .f32⟩
  | .local _ .vmem, ⟨39, _⟩ => ⟨S1x5, .f32⟩
  | .local _ .vmem, ⟨40, _⟩ => ⟨S5000x21, .f32⟩
  | .local _ .vmem, ⟨41, _⟩ => ⟨S5000x21, .f32⟩
  | .local _ .vmem, ⟨42, _⟩ => ⟨S5000x2, .f32⟩
  | .local _ .vmem, ⟨43, _⟩ => ⟨S5000x2, .f32⟩
  | .local _ .vmem, ⟨44, _⟩ => ⟨S5000x5, .f32⟩
  | .local _ .vmem, ⟨45, _⟩ => ⟨S5000x5, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82_0 : Ref sig .tc := ⟨.hbm, 118, rfl⟩
abbrev main_v82_1 : Ref sig .tc := ⟨.hbm, 119, rfl⟩
abbrev main_v82_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg11_1 : Ref sig .tc := ⟨.vmem, 41, rfl⟩
abbrev cc3_stg12_0 : Ref sig .tc := ⟨.vmem, 42, rfl⟩
abbrev cc3_stg12_1 : Ref sig .tc := ⟨.vmem, 43, rfl⟩
abbrev cc3_stg13_0 : Ref sig .tc := ⟨.vmem, 44, rfl⟩
abbrev cc3_stg13_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem11_1 : DmaSem sig := 41
abbrev cc3_sem12_0 : DmaSem sig := 42
abbrev cc3_sem12_1 : DmaSem sig := 43
abbrev cc3_sem13_0 : DmaSem sig := 44
abbrev cc3_sem13_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x21 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x21 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x21 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x5 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x5 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x5 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x21 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S5000x2 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S5000x5 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S21x128_S128x21_1_0 : S21x128.Transposes [1, 0] S128x21
  transposes_S2x128_S128x2_1_0 : S2x128.Transposes [1, 0] S128x2
  transposes_S5x128_S128x5_1_0 : S5x128.Transposes [1, 0] S128x5
  shapeCasts_S21_S1x21 : S21.ShapeCasts S1x21
  shapeCasts_S2_S1x2 : S2.ShapeCasts S1x2
  shapeCasts_S5_S1x5 : S5.ShapeCasts S1x5
  inb_S128x21_S128x21_0_0 : ∀ a, (![0, 0] : Fin 2 → Nat) a + S128x21.size a ≤ S128x21.size a
  h_S128x21 : 0 < S128x21.numel
  shapeCasts_S128x21_S128x21 : S128x21.ShapeCasts S128x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S5000x21 : S1x21.Broadcasts S5000x21
  inb_S5000x21_S5000x21_0_0 : ∀ a, (![0, 0] : Fin 2 → Nat) a + S5000x21.size a ≤ S5000x21.size a
  h_S5000x21 : 0 < S5000x21.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5000x5_S5000x5_0_0 : ∀ a, (![0, 0] : Fin 2 → Nat) a + S5000x5.size a ≤ S5000x5.size a
  h_S5000x5 : 0 < S5000x5.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x21_S5000x21_1_0_0_1_n_n_wf : DotDims.WF S5000x128 S128x21 S5000x21 [1] [0] [0] [1] [] []
  dot_S5000x128_S128x2_S5000x2_1_0_0_1_n_n_wf : DotDims.WF S5000x128 S128x2 S5000x2 [1] [0] [0] [1] [] []
  dot_S5000x128_S128x5_S5000x5_1_0_0_1_n_n_wf : DotDims.WF S5000x128 S128x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x21.size a ≤ S128x21.size a
  hwx3_2 : ∀ i : grid3.Coords, EltTy.bits .f32 = 32 ∨ (Rect.block (s := S128x21) S128x21.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x21.size a ≤ S128x21.size a
  hwx3_3 : ∀ i : grid3.Coords, EltTy.bits .f32 = 32 ∨ (Rect.block (s := S128x21) S128x21.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x21.size a ≤ S1x21.size a
  hwx3_4 : ∀ i : grid3.Coords, EltTy.bits .f32 = 32 ∨ (Rect.block (s := S1x21) S1x21.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x2.size a ≤ S128x2.size a
  hwx3_6 : ∀ i : grid3.Coords, EltTy.bits .f32 = 32 ∨ (Rect.block (s := S128x2) S128x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x2.size a ≤ S1x2.size a
  hwx3_7 : ∀ i : grid3.Coords, EltTy.bits .f32 = 32 ∨ (Rect.block (s := S1x2) S1x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x5.size a ≤ S128x5.size a
  hwx3_8 : ∀ i : grid3.Coords, EltTy.bits .f32 = 32 ∨ (Rect.block (s := S128x5) S128x5.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x5.size a ≤ S128x5.size a
  hwx3_9 : ∀ i : grid3.Coords, EltTy.bits .f32 = 32 ∨ (Rect.block (s := S128x5) S128x5.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x5.size a ≤ S1x5.size a
  hwx3_10 : ∀ i : grid3.Coords, EltTy.bits .f32 = 32 ∨ (Rect.block (s := S1x5) S1x5.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x21.size a ≤ S50000x21.size a
  hwx3_11 : ∀ i : grid3.Coords, EltTy.bits .f32 = 32 ∨ (Rect.block (s := S50000x21) S5000x21.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S5000x2.size a ≤ S50000x2.size a
  hwx3_12 : ∀ i : grid3.Coords, EltTy.bits .f32 = 32 ∨ (Rect.block (s := S50000x2) S5000x2.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S5000x5.size a ≤ S50000x5.size a
  hwx3_13 : ∀ i : grid3.Coords, EltTy.bits .f32 = 32 ∨ (Rect.block (s := S50000x5) S5000x5.size (cc3_transform_13 i) (hinb3_13 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x21_S5000x21_1_0_0_1_n_n : DotDims S5000x128 S128x21 S5000x21 where
  lhsContracting := [1]
  rhsContracting := [0]
  lhsNonContracting := [0]
  rhsNonContracting := [1]
  lhsBatch := []
  rhsBatch := []
  wf := dot_S5000x128_S128x21_S5000x21_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S128x21.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x21.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x21.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S128x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S128x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S1x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v77) S128x5.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v78) S128x5.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v81) S1x5.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v82_0) S5000x21.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v82_1) S5000x2.size cc3_transform_12 reads3_12 true false 2 stage3_12 sem3_12
    hrank3 hreads3_12 hinb3_12 nbuf3_12 (Memref.isWhole_whole _) hwx3_12 hstage3_12

abbrev win3_13 : Pipeline.Window sig grid3 :=
  Pipeline.Window.ofSpec (Memref.whole main_v82_2) S5000x5.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S21x128 : Shape := ⟨2, ![21, 128]⟩
abbrev S21 : Shape := ⟨1, ![21]⟩
abbrev S2x128 : Shape := ⟨2, ![2, 128]⟩
abbrev S2 : Shape := ⟨1, ![2]⟩
abbrev S5x128 : Shape := ⟨2, ![5, 128]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S128x21 : Shape := ⟨2, ![128, 21]⟩
abbrev S50000x21 : Shape := ⟨2, ![50000, 21]⟩
abbrev S1x21 : Shape := ⟨2, ![1, 21]⟩
abbrev S128x2 : Shape := ⟨2, ![128, 2]⟩
abbrev S50000x2 : Shape := ⟨2, ![50000, 2]⟩
abbrev S1x2 : Shape := ⟨2, ![1, 2]⟩
abbrev S128x5 : Shape := ⟨2, ![128, 5]⟩
abbrev S50000x5 : Shape := ⟨2, ![50000, 5]⟩
abbrev S1x5 : Shape := ⟨2, ![1, 5]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S21x128, .f32⟩
  | 12 => ⟨S21x128, .f32⟩
  | 13 => ⟨S21, .f32⟩
  | 14 => ⟨S2x128, .f32⟩
  | 15 => ⟨S2x128, .f32⟩
  | 16 => ⟨S2, .f32⟩
  | 17 => ⟨S5x128, .f32⟩
  | 18 => ⟨S5x128, .f32⟩
  | 19 => ⟨S5, .f32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S1600000, .f32⟩
  | 26 => ⟨S_, .f32⟩
  | 27 => ⟨S50000, .f32⟩
  | 28 => ⟨S1600000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S50000x128, .f32⟩
  | 48 => ⟨S1600000x1, .i32⟩
  | 49 => ⟨S50000x128, .f32⟩
  | 50 => ⟨S50000x128, .f32⟩
  | 51 => ⟨S50000x128, .f32⟩
  | 52 => ⟨S128x128, .f32⟩
  | 53 => ⟨S50000x128, .f32⟩
  | 54 => ⟨S1x128, .f32⟩
  | 55 => ⟨S50000x128, .f32⟩
  | 56 => ⟨S50000x128, .f32⟩
  | 57 => ⟨S128x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S50000x128, .f32⟩
  | 74 => ⟨S1600000x1, .i32⟩
  | 75 => ⟨S50000x128, .f32⟩
  | 76 => ⟨S50000x128, .f32⟩
  | 77 => ⟨S50000x128, .f32⟩
  | 78 => ⟨S128x128, .f32⟩
  | 79 => ⟨S50000x128, .f32⟩
  | 80 => ⟨S1x128, .f32⟩
  | 81 => ⟨S50000x128, .f32⟩
  | 82 => ⟨S50000x128, .f32⟩
  | 83 => ⟨S128x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S50000x128, .f32⟩
  | 100 => ⟨S1600000x1, .i32⟩
  | 101 => ⟨S50000x128, .f32⟩
  | 102 => ⟨S50000x128, .f32⟩
  | 103 => ⟨S50000x128, .f32⟩
  | 104 => ⟨S128x128, .f32⟩
  | 105 => ⟨S50000x128, .f32⟩
  | 106 => ⟨S1x128, .f32⟩
  | 107 => ⟨S50000x128, .f32⟩
  | 108 => ⟨S50000x128, .f32⟩
  | 109 => ⟨S128x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S50000x128, .f32⟩
  | 126 => ⟨S1600000x1, .i32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S128x21, .f32⟩
  | 3 => ⟨S50000x21, .f32⟩
  | 4 => ⟨S1x21, .f32⟩
  | 5 => ⟨S50000x21, .f32⟩
  | 6 => ⟨S50000x21, .f32⟩
  | 7 => ⟨S128x21, .f32⟩
  | 8 => ⟨S50000x21, .f32⟩
  | 9 => ⟨S50000x21, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S50000x128, .f32⟩
  | 21 => ⟨S1600000x1, .i32⟩
  | 22 => ⟨S50000x128, .f32⟩
  | 23 => ⟨S50000x128, .f32⟩
  | 24 => ⟨S50000x128, .f32⟩
  | 25 => ⟨S128x2, .f32⟩
  | 26 => ⟨S50000x2, .f32⟩
  | 27 => ⟨S1x2, .f32⟩
  | 28 => ⟨S50000x2, .f32⟩
  | 29 => ⟨S50000x2, .f32⟩
  | 30 => ⟨S128x2, .f32⟩
  | 31 => ⟨S50000x2, .f32⟩
  | 32 => ⟨S50000x2, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S50000x128, .f32⟩
  | 44 => ⟨S1600000x1, .i32⟩
  | 45 => ⟨S50000x128, .f32⟩
  | 46 => ⟨S50000x128, .f32⟩
  | 47 => ⟨S50000x128, .f32⟩
  | 48 => ⟨S128x5, .f32⟩
  | 49 => ⟨S50000x5, .f32⟩
  | 50 => ⟨S1x5, .f32⟩
  | 51 => ⟨S50000x5, .f32⟩
  | 52 => ⟨S50000x5, .f32⟩
  | 53 => ⟨S128x5, .f32⟩
  | 54 => ⟨S50000x5, .f32⟩
  | 55 => ⟨S50000x5, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_c_5 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call1_cst : Ref sig .tc := ⟨.hbm, 86, rfl⟩
abbrev main_call1_v0 : Ref sig .tc := ⟨.hbm, 87, rfl⟩
abbrev main_v54 : Ref sig .tc := ⟨.hbm, 88, rfl⟩
abbrev main_c_8 : Ref sig .tc := ⟨.hbm, 89, rfl⟩
abbrev main_v55 : Ref sig .tc := ⟨.hbm, 90, rfl⟩
abbrev main_v56 : Ref sig .tc := ⟨.hbm, 91, rfl⟩
abbrev main_c_9 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_10 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call2_cst : Ref sig .tc := ⟨.hbm, 112, rfl⟩
abbrev main_call2_v0 : Ref sig .tc := ⟨.hbm, 113, rfl⟩
abbrev main_v75 : Ref sig .tc := ⟨.hbm, 114, rfl⟩
abbrev main_c_11 : Ref sig .tc := ⟨.hbm, 115, rfl⟩
abbrev main_v76 : Ref sig .tc := ⟨.hbm, 116, rfl⟩
abbrev main_v77 : Ref sig .tc := ⟨.hbm, 117, rfl⟩
abbrev main_c_12 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_13 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_14 : Ref sig .tc := ⟨.hbm, 138, rfl⟩
abbrev main_v96 : Ref sig .tc := ⟨.hbm, 139, rfl⟩
abbrev main_v97 : Ref sig .tc := ⟨.hbm, 140, rfl⟩
abbrev main_c_15 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_16 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_17 : Ref sig .tc := ⟨.hbm, 161, rfl⟩
abbrev main_v116 : Ref sig .tc := ⟨.hbm, 162, rfl⟩
abbrev main_v117 : Ref sig .tc := ⟨.hbm, 163, rfl⟩
abbrev main_c_18 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_19 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S21x128_S128x21_1_0 : S21x128.Transposes [1, 0] S128x21
  bcast_S21_S1x21_1 : S21.BroadcastsInDim S1x21 (![1] : Fin 1 → Fin S1x21.rank)
  bcast_S1x21_S50000x21_0_1 : S1x21.BroadcastsInDim S50000x21 (![0, 1] : Fin 2 → Fin S50000x21.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  transposes_S5x128_S128x5_1_0 : S5x128.Transposes [1, 0] S128x5
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x21_S50000x21_1_0_0_1_n_n_wf : DotDims.WF S50000x128 S128x21 S50000x21 [1] [0] [0] [1] [] []
  dot_S50000x128_S128x2_S50000x2_1_0_0_1_n_n_wf : DotDims.WF S50000x128 S128x2 S50000x2 [1] [0] [0] [1] [] []
  dot_S50000x128_S128x5_S50000x5_1_0_0_1_n_n_wf : DotDims.WF S50000x128 S128x5 S50000x5 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x21_S50000x21_1_0_0_1_n_n : DotDims S50000x128 S128x21 S50000x21 where
  lhsContracting := [1]
  rhsContracting := [0]
  lhsNonContracting := [0]
  rhsNonContracting := [1]
  lhsBatch := []
  rhsBatch := []
  wf := dot_S50000x128_S128x21_S50000x21_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def dot_S50000x128_S128x5_S50000x5_1_0_0_1_n_n : DotDims S50000x128 S128x5 S50000x5 where
  lhsContracting := [1]
  rhsContracting := [0]
  lhsNonContracting := [0]
  rhsNonContracting := [1]
  lhsBatch := []
  rhsBatch := []
  wf := dot_S50000x128_S128x5_S50000x5_1_0_0_1_n_n_wf

class Facts : Prop extends Facts₀ where

variable [Facts]
-- ==== Proof.KRun.lean ====
/-
  The kernel program's run with every buffer NAMED at the end.

  The program is eight segments: a stretch of host operations, then a kernel region, four times over.  The buffer
  contents fold through those segments: after a host stretch every buffer holds the operations' values of what it
  held before; after a region the region's arrays hold what the pipeline's write-backs leave and every other buffer
  is untouched.  The proof that the arguments end unchanged reads, of the last valuation of that fold, only the
  arguments.  Here the same launch is read with the whole last valuation kept: every weakly fair execution
  terminates, and every buffer that is not scoped to a region ends at the last fold's contents.
-/
import proofs.«172742_j42709154791575_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and each unscoped buffer of each core
    ends at the contents the fold through the eight segments gives it. -/
theorem run_named : θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

end Cert.KernelIdeal.KValue

end
-- ==== Proof.KerDefs.lean ====
/-
  The host computations of the kernel's program named once, at the exact extended-real instance: the edges' source and
  target rows, the reciprocal in-degree (never below one), the neighbourhood mean of a feature array (a gather of the
  source rows, a sum of them into the target rows, the product with the reciprocal in-degree), and the transposes of
  the weight matrices.  Every later statement about the program speaks of these names and never opens them.
-/
import proofs.«172742_j42709154791575_1_alg».proof.Proof.Gen.KernelIdeal
import Idealize.ShloMosaic.PureOps.Ideal

noncomputable section

namespace Cert.KernelIdeal.KValue

open Cert.KernelIdeal Cert.KernelIdeal.Gen Idealize.ShloMosaic Idealize.ShloMosaic.TcCoe

/-- The edge list as the program holds it: row 0 the sources, row 1 the targets. -/
abbrev Edges : Type := (⟨S2x1600000, .i32⟩ : BufTy).Contents (Elt Ideal)

/-- The edges' sources. -/
def src (e : Edges) : IVec S1600000 32 :=
  shapeCast S1600000 (extractStridedSlice S1x1600000 ![0, 0] e slices_S2x1600000_S1x1600000_0_0) shapeCasts_S1x1600000_S1600000

/-- The edges' targets. -/
def dst (e : Edges) : IVec S1600000 32 :=
  shapeCast S1600000 (extractStridedSlice S1x1600000 ![1, 0] e slices_S2x1600000_S1x1600000_1_0) shapeCasts_S1x1600000_S1600000

/-- One over the in-degree of each node, the in-degree taken as at least one; a column. -/
def invDeg (e : Edges) : FVec Ideal S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S1600000x1_S1600000_n_0_0_1
          (broadcastInDim S50000 ![] bcast_S_S50000 (constant S_ .f32 0x00000000#32))
          (broadcastInDim S1600000x1 ![0] bcast_S1600000_S1600000x1_0 (dst e))
          (broadcastInDim S1600000 ![] bcast_S_S1600000 (constant S_ .f32 0x3F800000#32)))
        (broadcastInDim S50000 ![] bcast_S_S50000 (constant S_ .f32 0x3F800000#32))))

/-- The neighbourhood mean of the feature array `h`: for each node, the sum of the rows of `h` at the sources of
    the edges that end in it, times the reciprocal in-degree. -/
def agg (e : Edges) (h : FVec Ideal S50000x128 .f32) : FVec Ideal S50000x128 .f32 :=
  mulf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 (dst e))
      (Host.gather gather_S50000x128_S1600000x1_S1600000x128_1_0_n_n_0_1_1128 h
        (broadcastInDim S1600000x1 ![0] bcast_S1600000_S1600000x1_0
          (select (cmpi .slt (src e) (broadcastInDim S1600000 ![] bcast_S_S1600000 (constantI S_ 32 0#32)))
            (addi (src e) (broadcastInDim S1600000 ![] bcast_S_S1600000 (constantI S_ 32 50000#32)))
            (src e)))))
    (broadcastInDim S50000x128 ![0, 1] bcast_S50000x1_S50000x128_0_1 (invDeg e))

/-- The transposes of the weight matrices, `d × 128` to `128 × d`. -/
def T128 (w : FVec Ideal S128x128 .f32) : FVec Ideal S128x128 .f32 := transpose S128x128 [1, 0] w transposes_S128x128_S128x128_1_0
def T21 (w : FVec Ideal S21x128 .f32) : FVec Ideal S128x21 .f32 := transpose S128x21 [1, 0] w transposes_S21x128_S128x21_1_0
def T2 (w : FVec Ideal S2x128 .f32) : FVec Ideal S128x2 .f32 := transpose S128x2 [1, 0] w transposes_S2x128_S128x2_1_0
def T5 (w : FVec Ideal S5x128 .f32) : FVec Ideal S128x5 .f32 := transpose S128x5 [1, 0] w transposes_S5x128_S128x5_1_0

end Cert.KernelIdeal.KValue

end
-- ==== Proof.KHost.lean ====
/-
  What the kernel program's host stretches compute, read off the fold of the buffer contents.

  Before region 0 the host slices the edge list into sources and targets, counts the in-degrees, and forms the
  neighbourhood mean of the input features; before each later region it forms the neighbourhood mean of the previous
  region's output.  Each stretch also transposes the weights its region reads and reshapes the bias to a row.  Nothing
  ever overwrites the sources, the targets, the reciprocal in-degrees or an argument, so every stretch reads them as
  the first stretch left them.
-/
import proofs.«172742_j42709154791575_1_alg».proof.Proof.Gen.KernelIdeal.Frame
import proofs.«172742_j42709154791575_1_alg».proof.Proof.KerDefs
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of the named stretch writes the buffer in the goal. -/
local macro "not_written " ops:ident : tactic =>
  `(tactic| (refine List.forall_iff_forall_mem.mp ?_
             simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- An argument array as launched. -/
abbrev arg (b : Ref sig .tc) : Buf (Elt Ideal) ((c : Thread nD τ).loc b) := m ((c : Thread nD τ).loc b)

/-! ## After the first stretch -/

theorem w1_src : W1 m ρ c (Proc.devRef .tc main_v1) = src (arg m c main_arg1) := by
  show StableHlo.after hostOps0 (W0 m ρ c) (Proc.devRef .tc main_v1) = _
  after_results_simp <;> rfl
theorem w1_dst : W1 m ρ c (Proc.devRef .tc main_v3) = dst (arg m c main_arg1) := by
  show StableHlo.after hostOps0 (W0 m ρ c) (Proc.devRef .tc main_v3) = _
  after_results_simp <;> rfl
theorem w1_inv : W1 m ρ c (Proc.devRef .tc main_v12) = invDeg (arg m c main_arg1) := by
  show StableHlo.after hostOps0 (W0 m ρ c) (Proc.devRef .tc main_v12) = _
  after_results_simp <;> rfl
theorem w1_A : W1 m ρ c (Proc.devRef .tc main_v24) = agg (arg m c main_arg1) (arg m c main_arg0) := by
  show StableHlo.after hostOps0 (W0 m ρ c) (Proc.devRef .tc main_v24) = _
  after_results_simp <;> rfl
theorem w1_Wl : W1 m ρ c (Proc.devRef .tc main_v25) = T128 (arg m c main_arg2) := by
  show StableHlo.after hostOps0 (W0 m ρ c) (Proc.devRef .tc main_v25) = _
  after_results_simp <;> rfl
theorem w1_Wr : W1 m ρ c (Proc.devRef .tc main_v26) = T128 (arg m c main_arg3) := by
  show StableHlo.after hostOps0 (W0 m ρ c) (Proc.devRef .tc main_v26) = _
  after_results_simp <;> rfl
theorem w1_B : W1 m ρ c (Proc.devRef .tc main_v27) = shapeCast S1x128 (arg m c main_arg4) shapeCasts_S128_S1x128 := by
  show StableHlo.after hostOps0 (W0 m ρ c) (Proc.devRef .tc main_v27) = _
  after_results_simp <;> rfl
theorem w1_X : W1 m ρ c (Proc.devRef .tc main_arg0) = arg m c main_arg0 :=
  StableHlo.after_of_forall_not_mem (b := Proc.devRef .tc main_arg0) _ _ (by not_written hostOps0)
theorem w1_arg5 : W1 m ρ c (Proc.devRef .tc main_arg5) = arg m c main_arg5 :=
  StableHlo.after_of_forall_not_mem (b := Proc.devRef .tc main_arg5) _ _ (by not_written hostOps0)
theorem w1_arg6 : W1 m ρ c (Proc.devRef .tc main_arg6) = arg m c main_arg6 :=
  StableHlo.after_of_forall_not_mem (b := Proc.devRef .tc main_arg6) _ _ (by not_written hostOps0)
theorem w1_arg7 : W1 m ρ c (Proc.devRef .tc main_arg7) = arg m c main_arg7 :=
  StableHlo.after_of_forall_not_mem (b := Proc.devRef .tc main_arg7) _ _ (by not_written hostOps0)
theorem w1_arg8 : W1 m ρ c (Proc.devRef .tc main_arg8) = arg m c main_arg8 :=
  StableHlo.after_of_forall_not_mem (b := Proc.devRef .tc main_arg8) _ _ (by not_written hostOps0)
theorem w1_arg9 : W1 m ρ c (Proc.devRef .tc main_arg9) = arg m c main_arg9 :=
  StableHlo.after_of_forall_not_mem (b := Proc.devRef .tc main_arg9) _ _ (by not_written hostOps0)
theorem w1_arg10 : W1 m ρ c (Proc.devRef .tc main_arg10) = arg m c main_arg10 :=
  StableHlo.after_of_forall_not_mem (b := Proc.devRef .tc main_arg10) _ _ (by not_written hostOps0)
theorem w1_arg11 : W1 m ρ c (Proc.devRef .tc main_arg11) = arg m c main_arg11 :=
  StableHlo.after_of_forall_not_mem (b := Proc.devRef .tc main_arg11) _ _ (by not_written hostOps0)
theorem w1_arg12 : W1 m ρ c (Proc.devRef .tc main_arg12) = arg m c main_arg12 :=
  StableHlo.after_of_forall_not_mem (b := Proc.devRef .tc main_arg12) _ _ (by not_written hostOps0)
theorem w1_arg13 : W1 m ρ c (Proc.devRef .tc main_arg13) = arg m c main_arg13 :=
  StableHlo.after_of_forall_not_mem (b := Proc.devRef .tc main_arg13) _ _ (by not_written hostOps0)
theorem w1_arg14 : W1 m ρ c (Proc.devRef .tc main_arg14) = arg m c main_arg14 :=
  StableHlo.after_of_forall_not_mem (b := Proc.devRef .tc main_arg14) _ _ (by not_written hostOps0)
theorem w1_arg15 : W1 m ρ c (Proc.devRef .tc main_arg15) = arg m c main_arg15 :=
  StableHlo.after_of_forall_not_mem (b := Proc.devRef .tc main_arg15) _ _ (by not_written hostOps0)
theorem w1_arg16 : W1 m ρ c (Proc.devRef .tc main_arg16) = arg m c main_arg16 :=
  StableHlo.after_of_forall_not_mem (b := Proc.devRef .tc main_arg16) _ _ (by not_written hostOps0)
theorem w1_arg17 : W1 m ρ c (Proc.devRef .tc main_arg17) = arg m c main_arg17 :=
  StableHlo.after_of_forall_not_mem (b := Proc.devRef .tc main_arg17) _ _ (by not_written hostOps0)
theorem w1_arg18 : W1 m ρ c (Proc.devRef .tc main_arg18) = arg m c main_arg18 :=
  StableHlo.after_of_forall_not_mem (b := Proc.devRef .tc main_arg18) _ _ (by not_written hostOps0)
theorem w1_arg19 : W1 m ρ c (Proc.devRef .tc main_arg19) = arg m c main_arg19 :=
  StableHlo.after_of_forall_not_mem (b := Proc.devRef .tc main_arg19) _ _ (by not_written hostOps0)

/-! ## What is carried past a region and a stretch unchanged -/

theorem keep2 (b : Ref sig .tc) (h0 : ∀ w, Pipeline.arrRef spec0 w ≠ b) :
    W2 m ρ c (Proc.devRef .tc b) = W1 m ρ c (Proc.devRef .tc b) := W2_of_ne m ρ c b h0

theorem keep4 (b : Ref sig .tc) (h0 : ∀ w, Pipeline.arrRef spec0 w ≠ b)
    (h1 : ∀ op ∈ (hostOps1 : List (HloOp τ sig (Elt Ideal))), Proc.devRef .tc b ∉ op.writes) (h2 : ∀ w, Pipeline.arrRef spec1 w ≠ b) :
    W4 m ρ c (Proc.devRef .tc b) = W1 m ρ c (Proc.devRef .tc b) :=
  (W4_of_ne m ρ c b h2).trans ((StableHlo.after_of_forall_not_mem (b := Proc.devRef .tc b) _ _ h1).trans (keep2 m ρ c b h0))

theorem keep6 (b : Ref sig .tc) (h0 : ∀ w, Pipeline.arrRef spec0 w ≠ b)
    (h1 : ∀ op ∈ (hostOps1 : List (HloOp τ sig (Elt Ideal))), Proc.devRef .tc b ∉ op.writes) (h2 : ∀ w, Pipeline.arrRef spec1 w ≠ b)
    (h3 : ∀ op ∈ (hostOps2 : List (HloOp τ sig (Elt Ideal))), Proc.devRef .tc b ∉ op.writes) (h4 : ∀ w, Pipeline.arrRef spec2 w ≠ b) :
    W6 m ρ c (Proc.devRef .tc b) = W1 m ρ c (Proc.devRef .tc b) :=
  (W6_of_ne m ρ c b h4).trans ((StableHlo.after_of_forall_not_mem (b := Proc.devRef .tc b) _ _ h3).trans (keep4 m ρ c b h0 h1 h2))

theorem w2_src : W2 m ρ c (Proc.devRef .tc main_v1) = src (arg m c main_arg1) := (keep2 m ρ c main_v1 (by decide)).trans (w1_src m ρ c)
theorem w4_src : W4 m ρ c (Proc.devRef .tc main_v1) = src (arg m c main_arg1) :=
  (keep4 m ρ c main_v1 (by decide) (by not_written hostOps1) (by decide)).trans (w1_src m ρ c)
theorem w6_src : W6 m ρ c (Proc.devRef .tc main_v1) = src (arg m c main_arg1) :=
  (keep6 m ρ c main_v1 (by decide) (by not_written hostOps1) (by decide) (by not_written hostOps2) (by decide)).trans (w1_src m ρ c)
theorem w2_dst : W2 m ρ c (Proc.devRef .tc main_v3) = dst (arg m c main_arg1) := (keep2 m ρ c main_v3 (by decide)).trans (w1_dst m ρ c)
theorem w4_dst : W4 m ρ c (Proc.devRef .tc main_v3) = dst (arg m c main_arg1) :=
  (keep4 m ρ c main_v3 (by decide) (by not_written hostOps1) (by decide)).trans (w1_dst m ρ c)
theorem w6_dst : W6 m ρ c (Proc.devRef .tc main_v3) = dst (arg m c main_arg1) :=
  (keep6 m ρ c main_v3 (by decide) (by not_written hostOps1) (by decide) (by not_written hostOps2) (by decide)).trans (w1_dst m ρ c)
theorem w2_inv : W2 m ρ c (Proc.devRef .tc main_v12) = invDeg (arg m c main_arg1) := (keep2 m ρ c main_v12 (by decide)).trans (w1_inv m ρ c)
theorem w4_inv : W4 m ρ c (Proc.devRef .tc main_v12) = invDeg (arg m c main_arg1) :=
  (keep4 m ρ c main_v12 (by decide) (by not_written hostOps1) (by decide)).trans (w1_inv m ρ c)
theorem w6_inv : W6 m ρ c (Proc.devRef .tc main_v12) = invDeg (arg m c main_arg1) :=
  (keep6 m ρ c main_v12 (by decide) (by not_written hostOps1) (by decide) (by not_written hostOps2) (by decide)).trans (w1_inv m ρ c)
theorem w2_arg5 : W2 m ρ c (Proc.devRef .tc main_arg5) = arg m c main_arg5 := (keep2 m ρ c main_arg5 (by decide)).trans (w1_arg5 m ρ c)
theorem w2_arg6 : W2 m ρ c (Proc.devRef .tc main_arg6) = arg m c main_arg6 := (keep2 m ρ c main_arg6 (by decide)).trans (w1_arg6 m ρ c)
theorem w2_arg7 : W2 m ρ c (Proc.devRef .tc main_arg7) = arg m c main_arg7 := (keep2 m ρ c main_arg7 (by decide)).trans (w1_arg7 m ρ c)
theorem w4_arg8 : W4 m ρ c (Proc.devRef .tc main_arg8) = arg m c main_arg8 :=
  (keep4 m ρ c main_arg8 (by decide) (by not_written hostOps1) (by decide)).trans (w1_arg8 m ρ c)
theorem w4_arg9 : W4 m ρ c (Proc.devRef .tc main_arg9) = arg m c main_arg9 :=
  (keep4 m ρ c main_arg9 (by decide) (by not_written hostOps1) (by decide)).trans (w1_arg9 m ρ c)
theorem w4_arg10 : W4 m ρ c (Proc.devRef .tc main_arg10) = arg m c main_arg10 :=
  (keep4 m ρ c main_arg10 (by decide) (by not_written hostOps1) (by decide)).trans (w1_arg10 m ρ c)
theorem w6_arg11 : W6 m ρ c (Proc.devRef .tc main_arg11) = arg m c main_arg11 :=
  (keep6 m ρ c main_arg11 (by decide) (by not_written hostOps1) (by decide) (by not_written hostOps2) (by decide)).trans (w1_arg11 m ρ c)
theorem w6_arg12 : W6 m ρ c (Proc.devRef .tc main_arg12) = arg m c main_arg12 :=
  (keep6 m ρ c main_arg12 (by decide) (by not_written hostOps1) (by decide) (by not_written hostOps2) (by decide)).trans (w1_arg12 m ρ c)
theorem w6_arg13 : W6 m ρ c (Proc.devRef .tc main_arg13) = arg m c main_arg13 :=
  (keep6 m ρ c main_arg13 (by decide) (by not_written hostOps1) (by decide) (by not_written hostOps2) (by decide)).trans (w1_arg13 m ρ c)
theorem w6_arg14 : W6 m ρ c (Proc.devRef .tc main_arg14) = arg m c main_arg14 :=
  (keep6 m ρ c main_arg14 (by decide) (by not_written hostOps1) (by decide) (by not_written hostOps2) (by decide)).trans (w1_arg14 m ρ c)
theorem w6_arg15 : W6 m ρ c (Proc.devRef .tc main_arg15) = arg m c main_arg15 :=
  (keep6 m ρ c main_arg15 (by decide) (by not_written hostOps1) (by decide) (by not_written hostOps2) (by decide)).trans (w1_arg15 m ρ c)
theorem w6_arg16 : W6 m ρ c (Proc.devRef .tc main_arg16) = arg m c main_arg16 :=
  (keep6 m ρ c main_arg16 (by decide) (by not_written hostOps1) (by decide) (by not_written hostOps2) (by decide)).trans (w1_arg16 m ρ c)
theorem w6_arg17 : W6 m ρ c (Proc.devRef .tc main_arg17) = arg m c main_arg17 :=
  (keep6 m ρ c main_arg17 (by decide) (by not_written hostOps1) (by decide) (by not_written hostOps2) (by decide)).trans (w1_arg17 m ρ c)
theorem w6_arg18 : W6 m ρ c (Proc.devRef .tc main_arg18) = arg m c main_arg18 :=
  (keep6 m ρ c main_arg18 (by decide) (by not_written hostOps1) (by decide) (by not_written hostOps2) (by decide)).trans (w1_arg18 m ρ c)
theorem w6_arg19 : W6 m ρ c (Proc.devRef .tc main_arg19) = arg m c main_arg19 :=
  (keep6 m ρ c main_arg19 (by decide) (by not_written hostOps1) (by decide) (by not_written hostOps2) (by decide)).trans (w1_arg19 m ρ c)

/-! ## After stretch 3 -/

theorem w3_A : W3 m ρ c (Proc.devRef .tc main_v40) = agg (arg m c main_arg1) (W2 m ρ c (Proc.devRef .tc main_v28)) := by
  show StableHlo.after hostOps1 (W2 m ρ c) (Proc.devRef .tc main_v40) = _
  after_results_simp
  rw [w2_src m ρ c, w2_dst m ρ c, w2_inv m ρ c]
  rfl
theorem w3_X : W3 m ρ c (Proc.devRef .tc main_v28) = W2 m ρ c (Proc.devRef .tc main_v28) :=
  StableHlo.after_of_forall_not_mem (b := Proc.devRef .tc main_v28) _ _ (by not_written hostOps1)
theorem w3_Wl : W3 m ρ c (Proc.devRef .tc main_v41) = T128 (arg m c main_arg5) := by
  show StableHlo.after hostOps1 (W2 m ρ c) (Proc.devRef .tc main_v41) = _
  after_results_simp
  rw [w2_arg5 m ρ c]
  rfl
theorem w3_Wr : W3 m ρ c (Proc.devRef .tc main_v42) = T128 (arg m c main_arg6) := by
  show StableHlo.after hostOps1 (W2 m ρ c) (Proc.devRef .tc main_v42) = _
  after_results_simp
  rw [w2_arg6 m ρ c]
  rfl
theorem w3_B : W3 m ρ c (Proc.devRef .tc main_v43) = shapeCast S1x128 (arg m c main_arg7) shapeCasts_S128_S1x128 := by
  show StableHlo.after hostOps1 (W2 m ρ c) (Proc.devRef .tc main_v43) = _
  after_results_simp
  rw [w2_arg7 m ρ c]
  rfl

/-! ## After stretch 5 -/

theorem w5_A : W5 m ρ c (Proc.devRef .tc main_v56) = agg (arg m c main_arg1) (W4 m ρ c (Proc.devRef .tc main_v44)) := by
  show StableHlo.after hostOps2 (W4 m ρ c) (Proc.devRef .tc main_v56) = _
  after_results_simp
  rw [w4_src m ρ c, w4_dst m ρ c, w4_inv m ρ c]
  rfl
theorem w5_X : W5 m ρ c (Proc.devRef .tc main_v44) = W4 m ρ c (Proc.devRef .tc main_v44) :=
  StableHlo.after_of_forall_not_mem (b := Proc.devRef .tc main_v44) _ _ (by not_written hostOps2)
theorem w5_Wl : W5 m ρ c (Proc.devRef .tc main_v57) = T128 (arg m c main_arg8) := by
  show StableHlo.after hostOps2 (W4 m ρ c) (Proc.devRef .tc main_v57) = _
  after_results_simp
  rw [w4_arg8 m ρ c]
  rfl
theorem w5_Wr : W5 m ρ c (Proc.devRef .tc main_v58) = T128 (arg m c main_arg9) := by
  show StableHlo.after hostOps2 (W4 m ρ c) (Proc.devRef .tc main_v58) = _
  after_results_simp
  rw [w4_arg9 m ρ c]
  rfl
theorem w5_B : W5 m ρ c (Proc.devRef .tc main_v59) = shapeCast S1x128 (arg m c main_arg10) shapeCasts_S128_S1x128 := by
  show StableHlo.after hostOps2 (W4 m ρ c) (Proc.devRef .tc main_v59) = _
  after_results_simp
  rw [w4_arg10 m ρ c]
  rfl

/-! ## After stretch 7 (the heads' operands) -/

theorem w7_A : W7 m ρ c (Proc.devRef .tc main_v72) = agg (arg m c main_arg1) (W6 m ρ c (Proc.devRef .tc main_v60)) := by
  show StableHlo.after hostOps3 (W6 m ρ c) (Proc.devRef .tc main_v72) = _
  after_results_simp
  rw [w6_src m ρ c, w6_dst m ρ c, w6_inv m ρ c]
  rfl
theorem w7_X : W7 m ρ c (Proc.devRef .tc main_v60) = W6 m ρ c (Proc.devRef .tc main_v60) :=
  StableHlo.after_of_forall_not_mem (b := Proc.devRef .tc main_v60) _ _ (by not_written hostOps3)
theorem w7_main_v73 : W7 m ρ c (Proc.devRef .tc main_v73) = T21 (arg m c main_arg11) := by
  show StableHlo.after hostOps3 (W6 m ρ c) (Proc.devRef .tc main_v73) = _
  after_results_simp
  rw [w6_arg11 m ρ c]
  rfl
theorem w7_main_v74 : W7 m ρ c (Proc.devRef .tc main_v74) = T21 (arg m c main_arg12) := by
  show StableHlo.after hostOps3 (W6 m ρ c) (Proc.devRef .tc main_v74) = _
  after_results_simp
  rw [w6_arg12 m ρ c]
  rfl
theorem w7_main_v75 : W7 m ρ c (Proc.devRef .tc main_v75) = T2 (arg m c main_arg14) := by
  show StableHlo.after hostOps3 (W6 m ρ c) (Proc.devRef .tc main_v75) = _
  after_results_simp
  rw [w6_arg14 m ρ c]
  rfl
theorem w7_main_v76 : W7 m ρ c (Proc.devRef .tc main_v76) = T2 (arg m c main_arg15) := by
  show StableHlo.after hostOps3 (W6 m ρ c) (Proc.devRef .tc main_v76) = _
  after_results_simp
  rw [w6_arg15 m ρ c]
  rfl
theorem w7_main_v77 : W7 m ρ c (Proc.devRef .tc main_v77) = T5 (arg m c main_arg17) := by
  show StableHlo.after hostOps3 (W6 m ρ c) (Proc.devRef .tc main_v77) = _
  after_results_simp
  rw [w6_arg17 m ρ c]
  rfl
theorem w7_main_v78 : W7 m ρ c (Proc.devRef .tc main_v78) = T5 (arg m c main_arg18) := by
  show StableHlo.after hostOps3 (W6 m ρ c) (Proc.devRef .tc main_v78) = _
  after_results_simp
  rw [w6_arg18 m ρ c]
  rfl
theorem w7_main_v79 : W7 m ρ c (Proc.devRef .tc main_v79) = shapeCast S1x21 (arg m c main_arg13) shapeCasts_S21_S1x21 := by
  show StableHlo.after hostOps3 (W6 m ρ c) (Proc.devRef .tc main_v79) = _
  after_results_simp
  rw [w6_arg13 m ρ c]
  rfl
theorem w7_main_v80 : W7 m ρ c (Proc.devRef .tc main_v80) = shapeCast S1x2 (arg m c main_arg16) shapeCasts_S2_S1x2 := by
  show StableHlo.after hostOps3 (W6 m ρ c) (Proc.devRef .tc main_v80) = _
  after_results_simp
  rw [w6_arg16 m ρ c]
  rfl
theorem w7_main_v81 : W7 m ρ c (Proc.devRef .tc main_v81) = shapeCast S1x5 (arg m c main_arg19) shapeCasts_S5_S1x5 := by
  show StableHlo.after hostOps3 (W6 m ρ c) (Proc.devRef .tc main_v81) = _
  after_results_simp
  rw [w6_arg19 m ρ c]
  rfl

end Cert.KernelIdeal.KValue

end
-- ==== Proof.Spec.lean ====
/-
  The mathematics both programs compute, over the extended reals, with no program in sight.

  A SAGE layer maps the node features `X` (one row per node) and their neighbourhood means `A` to
  `A · Wl + X · Wr + b` (the weights arriving already transposed, `128 × d`; `b` a row added to every node),
  followed in the three hidden layers by `max (·) 0`.  The network stacks three hidden layers and three linear
  heads that all read the third hidden layer and its neighbourhood mean.  The neighbourhood mean itself
  (a gather along the edges' sources, a sum into the edges' targets, a division by the in-degree) is the same
  host computation in both programs, so it stays a parameter `agg` here.
-/
import Idealize.ShloMosaic.PureOps.Ideal
import Idealize.ShloMosaic.Lib.ValueIdx

noncomputable section

namespace Sage

open Idealize.ShloMosaic Idealize.ShloMosaic.ValueIdx

/-- An `a × b` array of extended reals, indexed as the printed programs index a rank-2 tensor. -/
abbrev Mat (a b : Nat) : Type := (⟨2, ![a, b]⟩ : Shape).Idx → EReal
/-- A vector of `b` extended reals. -/
abbrev Row (b : Nat) : Type := (⟨1, ![b]⟩ : Shape).Idx → EReal

/-- Entry `(r, c)` of `A · Wl + X · Wr + b`: the two products' sums added first, the bias last. -/
def lin {n d : Nat} (A X : Mat n 128) (Wl Wr : Mat 128 d) (b : Row d) : Mat n d := fun i =>
  (∑ k : Fin 128, A (ix2 (i 0) k) * Wl (ix2 k (i 1)) + ∑ k : Fin 128, X (ix2 (i 0) k) * Wr (ix2 k (i 1))) + b (ix1 (i 1))

/-- A hidden layer: the affine map, then `max (·) 0`. -/
def linRelu {n d : Nat} (A X : Mat n 128) (Wl Wr : Mat 128 d) (b : Row d) : Mat n d := fun i =>
  max (lin A X Wl Wr b i) 0

/-- The third hidden layer of the network over `n` nodes, the neighbourhood mean a parameter. -/
def hidden {n : Nat} (agg : Mat n 128 → Mat n 128) (x : Mat n 128)
    (wl1 wr1 : Mat 128 128) (b1 : Row 128) (wl2 wr2 : Mat 128 128) (b2 : Row 128) (wl3 wr3 : Mat 128 128) (b3 : Row 128) :
    Mat n 128 :=
  linRelu (agg (linRelu (agg (linRelu (agg x) x wl1 wr1 b1)) (linRelu (agg x) x wl1 wr1 b1) wl2 wr2 b2))
    (linRelu (agg (linRelu (agg x) x wl1 wr1 b1)) (linRelu (agg x) x wl1 wr1 b1) wl2 wr2 b2) wl3 wr3 b3

/-- A linear head over the hidden layer `h`. -/
def head {n d : Nat} (agg : Mat n 128 → Mat n 128) (h : Mat n 128) (wl wr : Mat 128 d) (b : Row d) : Mat n d :=
  lin (agg h) h wl wr b

/-- The order in which the bias is added does not matter: `(P + b) + Q = (P + Q) + b` on the extended reals
    (addition there is commutative and associative, also at the infinities). -/
theorem add_bias_comm (P Q b : EReal) : (P + b) + Q = (P + Q) + b := add_right_comm P b Q

end Sage

end
-- ==== Proof.LibPlainDot.lean ====
/-
  A plain matrix product read at an index (a general lemma: it depends only on the definitions of the printed
  programs' operations, on no program).

  For the dimension numbers of an `M×K` by `K×N` product (`DotDims.plain M K N`: the left operand contracted on its
  second axis, the right one on its first, no batch axis) the sum over the record's contraction index of the operands'
  products at the record's operand indices is the textbook sum `∑ k, l (r, k) * r (k, c)` over `Fin K`, in any additive
  commutative monoid with a product.  At the exact extended-real instance both a `tpu.matmul` into the zero
  accumulator and the host's `dot_general` are that sum (`matmul_zero_plain`, `dotGeneral_plain`).
-/
import Idealize.ShloMosaic.PureOps.Ideal.Laws
import Idealize.ShloMosaic.Lib.ValueIdx

noncomputable section

namespace PlainDot

open Idealize.ShloMosaic Idealize.ShloMosaic.ValueIdx

variable {M K N : Nat}

theorem contr_rank : (DotDims.plain M K N).contr.rank = 1 := rfl

theorem contr_size : (DotDims.plain M K N).contr.size ⟨0, by rw [contr_rank]; exact Nat.one_pos⟩ = K := rfl

theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand is read at (row of the output index, contraction position). -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  have hk := contrEquiv1_symm_val (DotDims.plain M K N) K contr_rank contr_size k
  funext a
  refine Fin.ext ?_
  match a with
  | ⟨0, _⟩ => exact lhs_row j _
  | ⟨1, _⟩ => exact ((DotDims.plain M K N).lhsIdx_val_of_single rfl j _).trans hk

/-- The right operand is read at (contraction position, column of the output index). -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  have hk := contrEquiv1_symm_val (DotDims.plain M K N) K contr_rank contr_size k
  funext a
  refine Fin.ext ?_
  match a with
  | ⟨0, _⟩ => exact ((DotDims.plain M K N).rhsIdx_val_of_single rfl j _).trans hk
  | ⟨1, _⟩ => exact rhs_col j _

/-- The record's sum is the textbook sum over `Fin K`. -/
theorem sum_plain {R : Type*} [AddCommMonoid R] [Mul R] (l : (⟨2, ![M, K]⟩ : Shape).Idx → R)
    (r : (⟨2, ![K, N]⟩ : Shape).Idx → R) (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  exact Finset.sum_congr rfl fun k _ =>
    congrArg₂ (· * ·) (congrArg l (lhsIdx_eq j k)) (congrArg r (rhsIdx_eq j k))

/-- A `tpu.matmul` into the zero accumulator, at the exact instance, is the textbook sum. -/
theorem matmul_zero_plain {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain l r j)

/-- The host's `dot_general`, at the exact instance, is the textbook sum, whatever the schedule key. -/
theorem dotGeneral_plain {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_plain l r j)

end PlainDot

end
-- ==== Proof.KRegion0.lean ====
/-
  Kernel region 0 read as a whole-array function.

  The region's grid has ten points; point `t` loads rows `5000 t … 5000 t + 4999` of the neighbourhood means and of
  the features, the two whole weight matrices and the bias row, and stores `max (A · Wl + X · Wr + b) 0` of them as
  rows `5000 t … 5000 t + 4999` of the output.  An output entry depends only on its own row of the two inputs, so
  the ten blocks are the restrictions of ONE function of the whole arrays (`Sage.linRelu`), and they tile the output.
-/
import proofs.«172742_j42709154791575_1_alg».proof.Proof.Gen.KernelIdeal.Frame
import proofs.«172742_j42709154791575_1_alg».proof.Proof.Spec
import proofs.«172742_j42709154791575_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue.R0

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's arithmetic at one entry -/

/-- Entry `(p, q)` of the stored block: the two products' sums (the roundings to the narrow format are the identity
    on extended reals, the accumulators start at zero), the bias row's entry `q`, and the maximum with zero. -/
theorem pay_apply (a x : Vec Ideal S5000x128 .f32) (wl wr : Vec Ideal S128x128 .f32) (b : Vec Ideal S1x128 .f32)
    (p : Fin 5000) (q : Fin 128) :
    k0_pay1 (F := Ideal) a x wl wr b (ix2 p q)
      = max ((∑ k : Fin 128, a (ix2 p k) * wl (ix2 k q) + ∑ k : Fin 128, x (ix2 p k) * wr (ix2 k q)) + b (ix2 (0 : Fin 1) q)) 0 := by
  unfold k0_pay1
  simp only [shapeCast_self]
  show max ((FloatOps.matmul (F := Ideal) dot_S5000x128_S128x128_S5000x128_1_0_0_1_n_n none (truncf .bf16 a bitsLt_bf16_f32) (truncf .bf16 wl bitsLt_bf16_f32) (constant S5000x128 .f32 0x00000000#32) (ix2 p q)
      + FloatOps.matmul (F := Ideal) dot_S5000x128_S128x128_S5000x128_1_0_0_1_n_n none (truncf .bf16 x bitsLt_bf16_f32) (truncf .bf16 wr bitsLt_bf16_f32) (constant S5000x128 .f32 0x00000000#32) (ix2 p q))
      + broadcastTo S5000x128 b broadcasts_S1x128_S5000x128 (ix2 p q)) (Ideal.ofBits .f32 0x00000000#32) = _
  rw [Ideal.ofBits_zero_f32]
  refine congrArg (fun z => max z 0) ?_
  refine congrArg₂ (· + ·) (congrArg₂ (· + ·) ?_ ?_) ?_
  · exact PlainDot.matmul_zero_plain (M := 5000) (K := 128) (N := 128) none _ _ (ix2 p q)
  · exact PlainDot.matmul_zero_plain (M := 5000) (K := 128) (N := 128) none _ _ (ix2 p q)
  · exact broadcastTo_1b_ab_apply (a := 5000) (b := 128) b broadcasts_S1x128_S5000x128 p q

section
variable (V : (c : Dev nD) → (b : Ref sig .tc) → Buf (Elt Ideal) ((c : Thread nD τ).loc b))

/-- The region's input arrays as it finds them, as plain arrays of extended reals. -/
abbrev aA (c : Dev nD) : Sage.Mat 50000 128 := V c main_v24
abbrev aX (c : Dev nD) : Sage.Mat 50000 128 := V c main_arg0
abbrev aWl (c : Dev nD) : Sage.Mat 128 128 := V c main_v25
abbrev aWr (c : Dev nD) : Sage.Mat 128 128 := V c main_v26
abbrev aB (c : Dev nD) : Sage.Mat 1 128 := V c main_v27

/-! ## The printed index maps over the grid -/

theorem hz : (![0, 0] : Fin 2 → Nat) = fun _ => 0 := funext fun a => by fin_cases a <;> rfl

/-- The row blocks move with the grid point, the weights and the bias stay at their one block. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks read where the output's rectangle says -/

/-- Row `p` of point `t`'s block of the neighbourhood means is row `5000 t + p` of the array. -/
theorem rdA (c : Dev nD) (t : Fin cfg0.N) (p : Fin 5000) (k : Fin 128) (r : Fin 50000) (hr : r.val = t.val * 5000 + p.val) :
    iblk0 V c 0 t (ix2 p k) = V c main_v24 (ix2 r k) := by
  obtain ⟨e0, e1, e2, e3, e4, e5, e6, e7, e8, e9, e10, e11⟩ := idx_facts t
  show V c main_v24 (((cfg0.win 0).blk t).view.emb (ix2 p k)) = V c main_v24 (ix2 r k)
  refine congrArg (V c main_v24) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the features. -/
theorem rdX (c : Dev nD) (t : Fin cfg0.N) (p : Fin 5000) (k : Fin 128) (r : Fin 50000) (hr : r.val = t.val * 5000 + p.val) :
    iblk0 V c 1 t (ix2 p k) = V c main_arg0 (ix2 r k) := by
  obtain ⟨e0, e1, e2, e3, e4, e5, e6, e7, e8, e9, e10, e11⟩ := idx_facts t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Every point's block of a weight matrix is the whole matrix. -/
theorem rdWl (c : Dev nD) (t : Fin cfg0.N) (k q : Fin 128) : iblk0 V c 2 t (ix2 k q) = V c main_v25 (ix2 k q) := by
  obtain ⟨e0, e1, e2, e3, e4, e5, e6, e7, e8, e9, e10, e11⟩ := idx_facts t
  show V c main_v25 (((cfg0.win 2).blk t).view.emb (ix2 k q)) = V c main_v25 (ix2 k q)
  refine congrArg (V c main_v25) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem rdWr (c : Dev nD) (t : Fin cfg0.N) (k q : Fin 128) : iblk0 V c 3 t (ix2 k q) = V c main_v26 (ix2 k q) := by
  obtain ⟨e0, e1, e2, e3, e4, e5, e6, e7, e8, e9, e10, e11⟩ := idx_facts t
  show V c main_v26 (((cfg0.win 3).blk t).view.emb (ix2 k q)) = V c main_v26 (ix2 k q)
  refine congrArg (V c main_v26) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Every point's block of the bias row is the whole row. -/
theorem rdB (c : Dev nD) (t : Fin cfg0.N) (q : Fin 128) : iblk0 V c 4 t (ix2 (0 : Fin 1) q) = V c main_v27 (ix2 (0 : Fin 1) q) := by
  obtain ⟨e0, e1, e2, e3, e4, e5, e6, e7, e8, e9, e10, e11⟩ := idx_facts t
  show V c main_v27 (((cfg0.win 4).blk t).view.emb (ix2 (0 : Fin 1) q)) = V c main_v27 (ix2 (0 : Fin 1) q)
  refine congrArg (V c main_v27) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## From blocks to the array -/

/-- The output array as one function of the region's input arrays. -/
def layer (c : Dev nD) : S50000x128.Idx → EReal :=
  Sage.linRelu (aA V c) (aX V c) (aWl V c) (aWr V c) (fun i => aB V c (ix2 (0 : Fin 1) (i 0)))

/-- Where point `t`'s output block sits in the array. -/
theorem emb_out (t : Fin cfg0.N) (p : Fin 5000) (q : Fin 128) :
    ∃ r : Fin 50000, r.val = t.val * 5000 + p.val ∧ ((cfg0.win 5).blk t).view.emb (ix2 p q) = ix2 r q := by
  obtain ⟨e0, e1, e2, e3, e4, e5, e6, e7, e8, e9, e10, e11⟩ := idx_facts t
  have ht : t.val < 10 := lt_of_lt_of_eq t.isLt (show cfg0.N = 10 from N_0)
  refine ⟨⟨t.val * 5000 + p.val, by have := p.isLt; omega⟩, rfl, funext fun a => Fin.ext ?_⟩
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back is block `t` of that function. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨r, hr, he⟩ := emb_out t p q
  show k0_pay1 (F := Ideal) (iblk0 V c 0 t) (iblk0 V c 1 t) (iblk0 V c 2 t) (iblk0 V c 3 t) (iblk0 V c 4 t) (ix2 p q)
    = layer V c (((cfg0.win 5).blk t).view.emb (ix2 p q))
  rw [he]
  refine (pay_apply (iblk0 V c 0 t) (iblk0 V c 1 t) (iblk0 V c 2 t) (iblk0 V c 3 t) (iblk0 V c 4 t) p q).trans ?_
  show _ = max ((∑ k : Fin 128, aA V c (ix2 r k) * aWl V c (ix2 k q) + ∑ k : Fin 128, aX V c (ix2 r k) * aWr V c (ix2 k q)) + aB V c (ix2 (0 : Fin 1) q)) 0
  refine congrArg (fun z => max z 0) (congrArg₂ (· + ·) (congrArg₂ (· + ·) ?_ ?_) (rdB V c t q))
  · exact Finset.sum_congr rfl fun k _ => congrArg₂ (· * ·) (rdA V c t p k r hr) (rdWl V c t k q)
  · exact Finset.sum_congr rfl fun k _ => congrArg₂ (· * ·) (rdX V c t p k r hr) (rdWr V c t k q)

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- The ten blocks tile the array: row `r` is in the block of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 5000, by rw [show cfg0.N = 10 from N_0]; omega⟩, flush0_5 _, ?_⟩
  rw [mem_blk]
  obtain ⟨e0, e1, -⟩ := idx_facts ⟨(i 0).val / 5000, by rw [show cfg0.N = 10 from N_0]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- THE OUTPUT ARRAY after the region: the layer function of the arrays the region was entered with. -/
theorem final (c : Dev nD) : (dat0 V c).arrAt 5 cfg0.N = layer V c :=
  (dat0 V c).arrAt_eq_of_cover 5 (layer V c) (fun t _ => flushed_eq V c t) (cover)

end

end Cert.KernelIdeal.KValue.R0

end
-- ==== Proof.KRegion1.lean ====
/-
  Kernel region 1 read as a whole-array function.

  The region's grid has ten points; point `t` loads rows `5000 t … 5000 t + 4999` of the neighbourhood means and of
  the features, the two whole weight matrices and the bias row, and stores `max (A · Wl + X · Wr + b) 0` of them as
  rows `5000 t … 5000 t + 4999` of the output.  An output entry depends only on its own row of the two inputs, so
  the ten blocks are the restrictions of ONE function of the whole arrays (`Sage.linRelu`), and they tile the output.
-/
import proofs.«172742_j42709154791575_1_alg».proof.Proof.Gen.KernelIdeal.Frame
import proofs.«172742_j42709154791575_1_alg».proof.Proof.Spec
import proofs.«172742_j42709154791575_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue.R1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's arithmetic at one entry -/

/-- Entry `(p, q)` of the stored block: the two products' sums (the roundings to the narrow format are the identity
    on extended reals, the accumulators start at zero), the bias row's entry `q`, and the maximum with zero. -/
theorem pay_apply (a x : Vec Ideal S5000x128 .f32) (wl wr : Vec Ideal S128x128 .f32) (b : Vec Ideal S1x128 .f32)
    (p : Fin 5000) (q : Fin 128) :
    k1_pay1 (F := Ideal) a x wl wr b (ix2 p q)
      = max ((∑ k : Fin 128, a (ix2 p k) * wl (ix2 k q) + ∑ k : Fin 128, x (ix2 p k) * wr (ix2 k q)) + b (ix2 (0 : Fin 1) q)) 0 := by
  unfold k1_pay1
  simp only [shapeCast_self]
  show max ((FloatOps.matmul (F := Ideal) dot_S5000x128_S128x128_S5000x128_1_0_0_1_n_n none (truncf .bf16 a bitsLt_bf16_f32) (truncf .bf16 wl bitsLt_bf16_f32) (constant S5000x128 .f32 0x00000000#32) (ix2 p q)
      + FloatOps.matmul (F := Ideal) dot_S5000x128_S128x128_S5000x128_1_0_0_1_n_n none (truncf .bf16 x bitsLt_bf16_f32) (truncf .bf16 wr bitsLt_bf16_f32) (constant S5000x128 .f32 0x00000000#32) (ix2 p q))
      + broadcastTo S5000x128 b broadcasts_S1x128_S5000x128 (ix2 p q)) (Ideal.ofBits .f32 0x00000000#32) = _
  rw [Ideal.ofBits_zero_f32]
  refine congrArg (fun z => max z 0) ?_
  refine congrArg₂ (· + ·) (congrArg₂ (· + ·) ?_ ?_) ?_
  · exact PlainDot.matmul_zero_plain (M := 5000) (K := 128) (N := 128) none _ _ (ix2 p q)
  · exact PlainDot.matmul_zero_plain (M := 5000) (K := 128) (N := 128) none _ _ (ix2 p q)
  · exact broadcastTo_1b_ab_apply (a := 5000) (b := 128) b broadcasts_S1x128_S5000x128 p q

section
variable (V : (c : Dev nD) → (b : Ref sig .tc) → Buf (Elt Ideal) ((c : Thread nD τ).loc b))

/-- The region's input arrays as it finds them, as plain arrays of extended reals. -/
abbrev aA (c : Dev nD) : Sage.Mat 50000 128 := V c main_v40
abbrev aX (c : Dev nD) : Sage.Mat 50000 128 := V c main_v28
abbrev aWl (c : Dev nD) : Sage.Mat 128 128 := V c main_v41
abbrev aWr (c : Dev nD) : Sage.Mat 128 128 := V c main_v42
abbrev aB (c : Dev nD) : Sage.Mat 1 128 := V c main_v43

/-! ## The printed index maps over the grid -/

theorem hz : (![0, 0] : Fin 2 → Nat) = fun _ => 0 := funext fun a => by fin_cases a <;> rfl

/-- The row blocks move with the grid point, the weights and the bias stay at their one block. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## The input blocks read where the output's rectangle says -/

/-- Row `p` of point `t`'s block of the neighbourhood means is row `5000 t + p` of the array. -/
theorem rdA (c : Dev nD) (t : Fin cfg1.N) (p : Fin 5000) (k : Fin 128) (r : Fin 50000) (hr : r.val = t.val * 5000 + p.val) :
    iblk1 V c 0 t (ix2 p k) = V c main_v40 (ix2 r k) := by
  obtain ⟨e0, e1, e2, e3, e4, e5, e6, e7, e8, e9, e10, e11⟩ := idx_facts t
  show V c main_v40 (((cfg1.win 0).blk t).view.emb (ix2 p k)) = V c main_v40 (ix2 r k)
  refine congrArg (V c main_v40) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the features. -/
theorem rdX (c : Dev nD) (t : Fin cfg1.N) (p : Fin 5000) (k : Fin 128) (r : Fin 50000) (hr : r.val = t.val * 5000 + p.val) :
    iblk1 V c 1 t (ix2 p k) = V c main_v28 (ix2 r k) := by
  obtain ⟨e0, e1, e2, e3, e4, e5, e6, e7, e8, e9, e10, e11⟩ := idx_facts t
  show V c main_v28 (((cfg1.win 1).blk t).view.emb (ix2 p k)) = V c main_v28 (ix2 r k)
  refine congrArg (V c main_v28) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Every point's block of a weight matrix is the whole matrix. -/
theorem rdWl (c : Dev nD) (t : Fin cfg1.N) (k q : Fin 128) : iblk1 V c 2 t (ix2 k q) = V c main_v41 (ix2 k q) := by
  obtain ⟨e0, e1, e2, e3, e4, e5, e6, e7, e8, e9, e10, e11⟩ := idx_facts t
  show V c main_v41 (((cfg1.win 2).blk t).view.emb (ix2 k q)) = V c main_v41 (ix2 k q)
  refine congrArg (V c main_v41) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem rdWr (c : Dev nD) (t : Fin cfg1.N) (k q : Fin 128) : iblk1 V c 3 t (ix2 k q) = V c main_v42 (ix2 k q) := by
  obtain ⟨e0, e1, e2, e3, e4, e5, e6, e7, e8, e9, e10, e11⟩ := idx_facts t
  show V c main_v42 (((cfg1.win 3).blk t).view.emb (ix2 k q)) = V c main_v42 (ix2 k q)
  refine congrArg (V c main_v42) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Every point's block of the bias row is the whole row. -/
theorem rdB (c : Dev nD) (t : Fin cfg1.N) (q : Fin 128) : iblk1 V c 4 t (ix2 (0 : Fin 1) q) = V c main_v43 (ix2 (0 : Fin 1) q) := by
  obtain ⟨e0, e1, e2, e3, e4, e5, e6, e7, e8, e9, e10, e11⟩ := idx_facts t
  show V c main_v43 (((cfg1.win 4).blk t).view.emb (ix2 (0 : Fin 1) q)) = V c main_v43 (ix2 (0 : Fin 1) q)
  refine congrArg (V c main_v43) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## From blocks to the array -/

/-- The output array as one function of the region's input arrays. -/
def layer (c : Dev nD) : S50000x128.Idx → EReal :=
  Sage.linRelu (aA V c) (aX V c) (aWl V c) (aWr V c) (fun i => aB V c (ix2 (0 : Fin 1) (i 0)))

/-- Where point `t`'s output block sits in the array. -/
theorem emb_out (t : Fin cfg1.N) (p : Fin 5000) (q : Fin 128) :
    ∃ r : Fin 50000, r.val = t.val * 5000 + p.val ∧ ((cfg1.win 5).blk t).view.emb (ix2 p q) = ix2 r q := by
  obtain ⟨e0, e1, e2, e3, e4, e5, e6, e7, e8, e9, e10, e11⟩ := idx_facts t
  have ht : t.val < 10 := lt_of_lt_of_eq t.isLt (show cfg1.N = 10 from N_1)
  refine ⟨⟨t.val * 5000 + p.val, by have := p.isLt; omega⟩, rfl, funext fun a => Fin.ext ?_⟩
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point `t` writes back is block `t` of that function. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨r, hr, he⟩ := emb_out t p q
  show k1_pay1 (F := Ideal) (iblk1 V c 0 t) (iblk1 V c 1 t) (iblk1 V c 2 t) (iblk1 V c 3 t) (iblk1 V c 4 t) (ix2 p q)
    = layer V c (((cfg1.win 5).blk t).view.emb (ix2 p q))
  rw [he]
  refine (pay_apply (iblk1 V c 0 t) (iblk1 V c 1 t) (iblk1 V c 2 t) (iblk1 V c 3 t) (iblk1 V c 4 t) p q).trans ?_
  show _ = max ((∑ k : Fin 128, aA V c (ix2 r k) * aWl V c (ix2 k q) + ∑ k : Fin 128, aX V c (ix2 r k) * aWr V c (ix2 k q)) + aB V c (ix2 (0 : Fin 1) q)) 0
  refine congrArg (fun z => max z 0) (congrArg₂ (· + ·) (congrArg₂ (· + ·) ?_ ?_) (rdB V c t q))
  · exact Finset.sum_congr rfl fun k _ => congrArg₂ (· * ·) (rdA V c t p k r hr) (rdWl V c t k q)
  · exact Finset.sum_congr rfl fun k _ => congrArg₂ (· * ·) (rdX V c t p k r hr) (rdWr V c t k q)

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- The ten blocks tile the array: row `r` is in the block of point `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by rw [show cfg1.N = 10 from N_1]; omega⟩, flush1_5 _, ?_⟩
  rw [mem_blk]
  obtain ⟨e0, e1, -⟩ := idx_facts ⟨(i 0).val / 5000, by rw [show cfg1.N = 10 from N_1]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- THE OUTPUT ARRAY after the region: the layer function of the arrays the region was entered with. -/
theorem final (c : Dev nD) : (dat1 V c).arrAt 5 cfg1.N = layer V c :=
  (dat1 V c).arrAt_eq_of_cover 5 (layer V c) (fun t _ => flushed_eq V c t) (cover)

end

end Cert.KernelIdeal.KValue.R1

end
-- ==== Proof.KRegion2.lean ====
/-
  Kernel region 2 read as a whole-array function.

  The region's grid has ten points; point `t` loads rows `5000 t … 5000 t + 4999` of the neighbourhood means and of
  the features, the two whole weight matrices and the bias row, and stores `max (A · Wl + X · Wr + b) 0` of them as
  rows `5000 t … 5000 t + 4999` of the output.  An output entry depends only on its own row of the two inputs, so
  the ten blocks are the restrictions of ONE function of the whole arrays (`Sage.linRelu`), and they tile the output.
-/
import proofs.«172742_j42709154791575_1_alg».proof.Proof.Gen.KernelIdeal.Frame
import proofs.«172742_j42709154791575_1_alg».proof.Proof.Spec
import proofs.«172742_j42709154791575_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue.R2

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's arithmetic at one entry -/

/-- Entry `(p, q)` of the stored block: the two products' sums (the roundings to the narrow format are the identity
    on extended reals, the accumulators start at zero), the bias row's entry `q`, and the maximum with zero. -/
theorem pay_apply (a x : Vec Ideal S5000x128 .f32) (wl wr : Vec Ideal S128x128 .f32) (b : Vec Ideal S1x128 .f32)
    (p : Fin 5000) (q : Fin 128) :
    k2_pay1 (F := Ideal) a x wl wr b (ix2 p q)
      = max ((∑ k : Fin 128, a (ix2 p k) * wl (ix2 k q) + ∑ k : Fin 128, x (ix2 p k) * wr (ix2 k q)) + b (ix2 (0 : Fin 1) q)) 0 := by
  unfold k2_pay1
  simp only [shapeCast_self]
  show max ((FloatOps.matmul (F := Ideal) dot_S5000x128_S128x128_S5000x128_1_0_0_1_n_n none (truncf .bf16 a bitsLt_bf16_f32) (truncf .bf16 wl bitsLt_bf16_f32) (constant S5000x128 .f32 0x00000000#32) (ix2 p q)
      + FloatOps.matmul (F := Ideal) dot_S5000x128_S128x128_S5000x128_1_0_0_1_n_n none (truncf .bf16 x bitsLt_bf16_f32) (truncf .bf16 wr bitsLt_bf16_f32) (constant S5000x128 .f32 0x00000000#32) (ix2 p q))
      + broadcastTo S5000x128 b broadcasts_S1x128_S5000x128 (ix2 p q)) (Ideal.ofBits .f32 0x00000000#32) = _
  rw [Ideal.ofBits_zero_f32]
  refine congrArg (fun z => max z 0) ?_
  refine congrArg₂ (· + ·) (congrArg₂ (· + ·) ?_ ?_) ?_
  · exact PlainDot.matmul_zero_plain (M := 5000) (K := 128) (N := 128) none _ _ (ix2 p q)
  · exact PlainDot.matmul_zero_plain (M := 5000) (K := 128) (N := 128) none _ _ (ix2 p q)
  · exact broadcastTo_1b_ab_apply (a := 5000) (b := 128) b broadcasts_S1x128_S5000x128 p q

section
variable (V : (c : Dev nD) → (b : Ref sig .tc) → Buf (Elt Ideal) ((c : Thread nD τ).loc b))

/-- The region's input arrays as it finds them, as plain arrays of extended reals. -/
abbrev aA (c : Dev nD) : Sage.Mat 50000 128 := V c main_v56
abbrev aX (c : Dev nD) : Sage.Mat 50000 128 := V c main_v44
abbrev aWl (c : Dev nD) : Sage.Mat 128 128 := V c main_v57
abbrev aWr (c : Dev nD) : Sage.Mat 128 128 := V c main_v58
abbrev aB (c : Dev nD) : Sage.Mat 1 128 := V c main_v59

/-! ## The printed index maps over the grid -/

theorem hz : (![0, 0] : Fin 2 → Nat) = fun _ => 0 := funext fun a => by fin_cases a <;> rfl

/-- The row blocks move with the grid point, the weights and the bias stay at their one block. -/
theorem idx_facts : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-! ## The input blocks read where the output's rectangle says -/

/-- Row `p` of point `t`'s block of the neighbourhood means is row `5000 t + p` of the array. -/
theorem rdA (c : Dev nD) (t : Fin cfg2.N) (p : Fin 5000) (k : Fin 128) (r : Fin 50000) (hr : r.val = t.val * 5000 + p.val) :
    iblk2 V c 0 t (ix2 p k) = V c main_v56 (ix2 r k) := by
  obtain ⟨e0, e1, e2, e3, e4, e5, e6, e7, e8, e9, e10, e11⟩ := idx_facts t
  show V c main_v56 (((cfg2.win 0).blk t).view.emb (ix2 p k)) = V c main_v56 (ix2 r k)
  refine congrArg (V c main_v56) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The same for the features. -/
theorem rdX (c : Dev nD) (t : Fin cfg2.N) (p : Fin 5000) (k : Fin 128) (r : Fin 50000) (hr : r.val = t.val * 5000 + p.val) :
    iblk2 V c 1 t (ix2 p k) = V c main_v44 (ix2 r k) := by
  obtain ⟨e0, e1, e2, e3, e4, e5, e6, e7, e8, e9, e10, e11⟩ := idx_facts t
  show V c main_v44 (((cfg2.win 1).blk t).view.emb (ix2 p k)) = V c main_v44 (ix2 r k)
  refine congrArg (V c main_v44) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Every point's block of a weight matrix is the whole matrix. -/
theorem rdWl (c : Dev nD) (t : Fin cfg2.N) (k q : Fin 128) : iblk2 V c 2 t (ix2 k q) = V c main_v57 (ix2 k q) := by
  obtain ⟨e0, e1, e2, e3, e4, e5, e6, e7, e8, e9, e10, e11⟩ := idx_facts t
  show V c main_v57 (((cfg2.win 2).blk t).view.emb (ix2 k q)) = V c main_v57 (ix2 k q)
  refine congrArg (V c main_v57) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem rdWr (c : Dev nD) (t : Fin cfg2.N) (k q : Fin 128) : iblk2 V c 3 t (ix2 k q) = V c main_v58 (ix2 k q) := by
  obtain ⟨e0, e1, e2, e3, e4, e5, e6, e7, e8, e9, e10, e11⟩ := idx_facts t
  show V c main_v58 (((cfg2.win 3).blk t).view.emb (ix2 k q)) = V c main_v58 (ix2 k q)
  refine congrArg (V c main_v58) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Every point's block of the bias row is the whole row. -/
theorem rdB (c : Dev nD) (t : Fin cfg2.N) (q : Fin 128) : iblk2 V c 4 t (ix2 (0 : Fin 1) q) = V c main_v59 (ix2 (0 : Fin 1) q) := by
  obtain ⟨e0, e1, e2, e3, e4, e5, e6, e7, e8, e9, e10, e11⟩ := idx_facts t
  show V c main_v59 (((cfg2.win 4).blk t).view.emb (ix2 (0 : Fin 1) q)) = V c main_v59 (ix2 (0 : Fin 1) q)
  refine congrArg (V c main_v59) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-! ## From blocks to the array -/

/-- The output array as one function of the region's input arrays. -/
def layer (c : Dev nD) : S50000x128.Idx → EReal :=
  Sage.linRelu (aA V c) (aX V c) (aWl V c) (aWr V c) (fun i => aB V c (ix2 (0 : Fin 1) (i 0)))

/-- Where point `t`'s output block sits in the array. -/
theorem emb_out (t : Fin cfg2.N) (p : Fin 5000) (q : Fin 128) :
    ∃ r : Fin 50000, r.val = t.val * 5000 + p.val ∧ ((cfg2.win 5).blk t).view.emb (ix2 p q) = ix2 r q := by
  obtain ⟨e0, e1, e2, e3, e4, e5, e6, e7, e8, e9, e10, e11⟩ := idx_facts t
  have ht : t.val < 10 := lt_of_lt_of_eq t.isLt (show cfg2.N = 10 from N_2)
  refine ⟨⟨t.val * 5000 + p.val, by have := p.isLt; omega⟩, rfl, funext fun a => Fin.ext ?_⟩
  match a with
  | ⟨0, _⟩ => show win2_5.index t (0 : Fin 2) * 5000 + 1 * p.val = t.val * 5000 + p.val; omega
  | ⟨1, _⟩ => show win2_5.index t (1 : Fin 2) * 128 + 1 * q.val = q.val; omega

/-- What point `t` writes back is block `t` of that function. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨r, hr, he⟩ := emb_out t p q
  show k2_pay1 (F := Ideal) (iblk2 V c 0 t) (iblk2 V c 1 t) (iblk2 V c 2 t) (iblk2 V c 3 t) (iblk2 V c 4 t) (ix2 p q)
    = layer V c (((cfg2.win 5).blk t).view.emb (ix2 p q))
  rw [he]
  refine (pay_apply (iblk2 V c 0 t) (iblk2 V c 1 t) (iblk2 V c 2 t) (iblk2 V c 3 t) (iblk2 V c 4 t) p q).trans ?_
  show _ = max ((∑ k : Fin 128, aA V c (ix2 r k) * aWl V c (ix2 k q) + ∑ k : Fin 128, aX V c (ix2 r k) * aWr V c (ix2 k q)) + aB V c (ix2 (0 : Fin 1) q)) 0
  refine congrArg (fun z => max z 0) (congrArg₂ (· + ·) (congrArg₂ (· + ·) ?_ ?_) (rdB V c t q))
  · exact Finset.sum_congr rfl fun k _ => congrArg₂ (· * ·) (rdA V c t p k r hr) (rdWl V c t k q)
  · exact Finset.sum_congr rfl fun k _ => congrArg₂ (· * ·) (rdX V c t p k r hr) (rdWr V c t k q)

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v60).slice (win2_5.rect t)).set ↔ _
  rw [View.set_slice_whole, Rect.mem_set_unit]
  exact Iff.rfl

/-- The ten blocks tile the array: row `r` is in the block of point `r / 5000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 5000, by rw [show cfg2.N = 10 from N_2]; omega⟩, flush2_5 _, ?_⟩
  rw [mem_blk]
  obtain ⟨e0, e1, -⟩ := idx_facts ⟨(i 0).val / 5000, by rw [show cfg2.N = 10 from N_2]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- THE OUTPUT ARRAY after the region: the layer function of the arrays the region was entered with. -/
theorem final (c : Dev nD) : (dat2 V c).arrAt 5 cfg2.N = layer V c :=
  (dat2 V c).arrAt_eq_of_cover 5 (layer V c) (fun t _ => flushed_eq V c t) (cover)

end

end Cert.KernelIdeal.KValue.R2

end
-- ==== Proof.KRegion3.lean ====
/-
  The heads' kernel region read as whole-array functions.

  One region computes the three linear heads from the third hidden layer and its neighbourhood mean: point `t` of
  its ten-point grid loads rows `5000 t … 5000 t + 4999` of both, the six whole weight matrices and the three bias
  rows, and stores `A · Wl + X · Wr + b` of them as rows `5000 t … 5000 t + 4999` of each head's output.  Each
  output's ten blocks are the restrictions of one function of the whole arrays (`Sage.lin`), and they tile it.
-/
import proofs.«172742_j42709154791575_1_alg».proof.Proof.Gen.KernelIdeal.Frame
import proofs.«172742_j42709154791575_1_alg».proof.Proof.Spec
import proofs.«172742_j42709154791575_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue.R3

open Cert.KernelIdeal Cert.KernelIdeal.Gen Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The row blocks (the two inputs, the three outputs) move with the grid point; the weights and the bias rows stay
    at their one block. -/
theorem idx_facts : ∀ t : Fin cfg3.N, win3_11.index t (0 : Fin 2) = t.val ∧ win3_11.index t (1 : Fin 2) = 0
    ∧ win3_12.index t (0 : Fin 2) = t.val ∧ win3_12.index t (1 : Fin 2) = 0
    ∧ win3_13.index t (0 : Fin 2) = t.val ∧ win3_13.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

section
variable (V : (c : Dev nD) → (b : Ref sig .tc) → Buf (Elt Ideal) ((c : Thread nD τ).loc b))

/-- The region's two row-blocked input arrays as it finds them, as plain arrays of extended reals. -/
abbrev aA (c : Dev nD) : Sage.Mat 50000 128 := V c main_v72
abbrev aX (c : Dev nD) : Sage.Mat 50000 128 := V c main_v60

/-- Row `p` of point `t`'s block of the neighbourhood means is row `5000 t + p` of the array. -/
theorem rdA (c : Dev nD) (t : Fin cfg3.N) (p : Fin 5000) (k : Fin 128) (r : Fin 50000) (hr : r.val = t.val * 5000 + p.val) :
    iblk3 V c 0 t (ix2 p k) = V c main_v72 (ix2 r k) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v72 (((cfg3.win 0).blk t).view.emb (ix2 p k)) = V c main_v72 (ix2 r k)
  refine congrArg (V c main_v72) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The same for the hidden layer. -/
theorem rdX (c : Dev nD) (t : Fin cfg3.N) (p : Fin 5000) (k : Fin 128) (r : Fin 50000) (hr : r.val = t.val * 5000 + p.val) :
    iblk3 V c 1 t (ix2 p k) = V c main_v60 (ix2 r k) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v60 (((cfg3.win 1).blk t).view.emb (ix2 p k)) = V c main_v60 (ix2 r k)
  refine congrArg (V c main_v60) (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

end

/-! # The head with 21 outputs -/

namespace Age

/-- Entry `(p, q)` of the stored block: the two products' sums and the bias row's entry `q`. -/
theorem pay_apply (a x : Vec Ideal S5000x128 .f32) (wl wr : Vec Ideal S128x21 .f32) (b : Vec Ideal S1x21 .f32)
    (p : Fin 5000) (q : Fin 21) :
    k3_pay4 (F := Ideal) a x wl wr b (ix2 p q)
      = (∑ k : Fin 128, a (ix2 p k) * wl (ix2 k q) + ∑ k : Fin 128, x (ix2 p k) * wr (ix2 k q)) + b (ix2 (0 : Fin 1) q) := by
  unfold k3_pay4 k3_pay2 k3_pay3
  simp only [shapeCast_self]
  show (FloatOps.matmul (F := Ideal) dot_S5000x128_S128x21_S5000x21_1_0_0_1_n_n none (truncf .bf16 a bitsLt_bf16_f32) (truncf .bf16 wl bitsLt_bf16_f32) (constant S5000x21 .f32 0x00000000#32) (ix2 p q)
      + FloatOps.matmul (F := Ideal) dot_S5000x128_S128x21_S5000x21_1_0_0_1_n_n none (truncf .bf16 x bitsLt_bf16_f32) (truncf .bf16 wr bitsLt_bf16_f32) (constant S5000x21 .f32 0x00000000#32) (ix2 p q))
      + broadcastTo S5000x21 b broadcasts_S1x21_S5000x21 (ix2 p q) = _
  refine congrArg₂ (· + ·) (congrArg₂ (· + ·) ?_ ?_) ?_
  · exact PlainDot.matmul_zero_plain (M := 5000) (K := 128) (N := 21) none _ _ (ix2 p q)
  · exact PlainDot.matmul_zero_plain (M := 5000) (K := 128) (N := 21) none _ _ (ix2 p q)
  · exact broadcastTo_1b_ab_apply (a := 5000) (b := 21) b broadcasts_S1x21_S5000x21 p q

section
variable (V : (c : Dev nD) → (b : Ref sig .tc) → Buf (Elt Ideal) ((c : Thread nD τ).loc b))

/-- This head's weights and bias row as the region finds them. -/
abbrev aWl (c : Dev nD) : Sage.Mat 128 21 := V c main_v73
abbrev aWr (c : Dev nD) : Sage.Mat 128 21 := V c main_v74
abbrev aB (c : Dev nD) : Sage.Mat 1 21 := V c main_v79

theorem rdWl (c : Dev nD) (t : Fin cfg3.N) (k : Fin 128) (q : Fin 21) : iblk3 V c 2 t (ix2 k q) = V c main_v73 (ix2 k q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v73 (((cfg3.win 2).blk t).view.emb (ix2 k q)) = V c main_v73 (ix2 k q)
  refine congrArg (V c main_v73) (funext fun a => Fin.ext ?_)
  match a with
  | ⟨0, _⟩ => show win3_2.index t (0 : Fin 2) * 128 + 1 * k.val = k.val; omega
  | ⟨1, _⟩ => show win3_2.index t (1 : Fin 2) * 21 + 1 * q.val = q.val; omega

theorem rdWr (c : Dev nD) (t : Fin cfg3.N) (k : Fin 128) (q : Fin 21) : iblk3 V c 3 t (ix2 k q) = V c main_v74 (ix2 k q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v74 (((cfg3.win 3).blk t).view.emb (ix2 k q)) = V c main_v74 (ix2 k q)
  refine congrArg (V c main_v74) (funext fun a => Fin.ext ?_)
  match a with
  | ⟨0, _⟩ => show win3_3.index t (0 : Fin 2) * 128 + 1 * k.val = k.val; omega
  | ⟨1, _⟩ => show win3_3.index t (1 : Fin 2) * 21 + 1 * q.val = q.val; omega

theorem rdB (c : Dev nD) (t : Fin cfg3.N) (q : Fin 21) : iblk3 V c 4 t (ix2 (0 : Fin 1) q) = V c main_v79 (ix2 (0 : Fin 1) q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v79 (((cfg3.win 4).blk t).view.emb (ix2 (0 : Fin 1) q)) = V c main_v79 (ix2 (0 : Fin 1) q)
  refine congrArg (V c main_v79) (funext fun a => Fin.ext ?_)
  match a with
  | ⟨0, _⟩ => show win3_4.index t (0 : Fin 2) * 1 + 1 * 0 = 0; omega
  | ⟨1, _⟩ => show win3_4.index t (1 : Fin 2) * 21 + 1 * q.val = q.val; omega

/-- The head's output array as one function of the region's input arrays. -/
def out (c : Dev nD) : S50000x21.Idx → EReal :=
  Sage.lin (aA V c) (aX V c) (aWl V c) (aWr V c) (fun i => aB V c (ix2 (0 : Fin 1) (i 0)))

theorem emb_out (t : Fin cfg3.N) (p : Fin 5000) (q : Fin 21) :
    ∃ r : Fin 50000, r.val = t.val * 5000 + p.val ∧ ((cfg3.win 11).blk t).view.emb (ix2 p q) = ix2 r q := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  have ht : t.val < 10 := lt_of_lt_of_eq t.isLt (show cfg3.N = 10 from N_3)
  refine ⟨⟨t.val * 5000 + p.val, by have := p.isLt; omega⟩, rfl, funext fun a => Fin.ext ?_⟩
  match a with
  | ⟨0, _⟩ => show win3_11.index t (0 : Fin 2) * 5000 + 1 * p.val = t.val * 5000 + p.val; omega
  | ⟨1, _⟩ => show win3_11.index t (1 : Fin 2) * 21 + 1 * q.val = q.val; omega

theorem flushed_eq (c : Dev nD) (t : Fin cfg3.N) :
    (dat3 V c).flushed 11 t = ((cfg3.win 11).blk t).view.read (Elt Ideal) (out V c) := by
  show (cfg3.win 11).cut (grid3.coords t) ((dat3 V c).after 11 t) = _
  rw [after3_11]
  unfold out3_11
  rw [View.canon_unit_zero hz]
  simp only [View.ld_unit_zero (S := S5000x128) hz, View.ld_unit_zero (S := S128x21) hz, View.ld_unit_zero (S := S1x21) hz]
  funext j
  obtain ⟨p, q, rfl⟩ : ∃ (p : Fin 5000) (q : Fin 21), j = ix2 p q := ⟨j 0, j 1, eq_ix2 j⟩
  obtain ⟨r, hr, he⟩ := emb_out t p q
  show k3_pay4 (F := Ideal) (iblk3 V c 0 t) (iblk3 V c 1 t) (iblk3 V c 2 t) (iblk3 V c 3 t) (iblk3 V c 4 t) (ix2 p q)
    = out V c (((cfg3.win 11).blk t).view.emb (ix2 p q))
  rw [he]
  refine (pay_apply (iblk3 V c 0 t) (iblk3 V c 1 t) (iblk3 V c 2 t) (iblk3 V c 3 t) (iblk3 V c 4 t) p q).trans ?_
  show _ = (∑ k : Fin 128, aA V c (ix2 r k) * aWl V c (ix2 k q) + ∑ k : Fin 128, aX V c (ix2 r k) * aWr V c (ix2 k q)) + aB V c (ix2 (0 : Fin 1) q)
  refine congrArg₂ (· + ·) (congrArg₂ (· + ·) ?_ ?_) (rdB V c t q)
  · exact Finset.sum_congr rfl fun k _ => congrArg₂ (· * ·) (rdA V c t p k r hr) (rdWl V c t k q)
  · exact Finset.sum_congr rfl fun k _ => congrArg₂ (· * ·) (rdX V c t p k r hr) (rdWr V c t k q)

theorem mem_blk (t : Fin cfg3.N) (i : S50000x21.Idx) :
    i ∈ ((cfg3.win 11).blk t).view.set ↔ ∀ a : Fin 2, win3_11.index t a * S5000x21.size a ≤ (i a).val ∧ (i a).val < win3_11.index t a * S5000x21.size a + S5000x21.size a := by
  show i ∈ ((View.whole main_v82_0).slice (win3_11.rect t)).set ↔ _
  rw [View.set_slice_whole, Rect.mem_set_unit]
  exact Iff.rfl

theorem cover (i : S50000x21.Idx) : ∃ t : Fin cfg3.N, (cfg3.win 11).flush t = true ∧ i ∈ ((cfg3.win 11).blk t).view.set := by
  have hi0 : (i 0).val < 50000 := (i 0).isLt
  have hi1 : (i 1).val < 21 := (i 1).isLt
  refine ⟨⟨(i 0).val / 5000, by rw [show cfg3.N = 10 from N_3]; omega⟩, flush3_11 _, ?_⟩
  rw [mem_blk]
  have hf := idx_facts ⟨(i 0).val / 5000, by rw [show cfg3.N = 10 from N_3]; omega⟩
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := hf
  intro a
  match a with
  | ⟨0, _⟩ =>
    show win3_11.index _ (0 : Fin 2) * 5000 ≤ (i 0).val ∧ (i 0).val < win3_11.index _ (0 : Fin 2) * 5000 + 5000
    rw [e11_0]; show (i 0).val / 5000 * 5000 ≤ (i 0).val ∧ (i 0).val < (i 0).val / 5000 * 5000 + 5000; omega
  | ⟨1, _⟩ =>
    show win3_11.index _ (1 : Fin 2) * 21 ≤ (i 1).val ∧ (i 1).val < win3_11.index _ (1 : Fin 2) * 21 + 21
    rw [e11_1]; omega

/-- THE HEAD'S ARRAY after the region. -/
theorem final (c : Dev nD) : (dat3 V c).arrAt 11 cfg3.N = out V c :=
  (dat3 V c).arrAt_eq_of_cover 11 (out V c) (fun t _ => flushed_eq V c t) (cover)

end

end Age

/-! # The head with 2 outputs -/

namespace Sex

/-- Entry `(p, q)` of the stored block: the two products' sums and the bias row's entry `q`. -/
theorem pay_apply (a x : Vec Ideal S5000x128 .f32) (wl wr : Vec Ideal S128x2 .f32) (b : Vec Ideal S1x2 .f32)
    (p : Fin 5000) (q : Fin 2) :
    k3_pay5 (F := Ideal) a x wl wr b (ix2 p q)
      = (∑ k : Fin 128, a (ix2 p k) * wl (ix2 k q) + ∑ k : Fin 128, x (ix2 p k) * wr (ix2 k q)) + b (ix2 (0 : Fin 1) q) := by
  unfold k3_pay5 k3_pay2 k3_pay3
  simp only [shapeCast_self]
  show (FloatOps.matmul (F := Ideal) dot_S5000x128_S128x2_S5000x2_1_0_0_1_n_n none (truncf .bf16 a bitsLt_bf16_f32) (truncf .bf16 wl bitsLt_bf16_f32) (constant S5000x2 .f32 0x00000000#32) (ix2 p q)
      + FloatOps.matmul (F := Ideal) dot_S5000x128_S128x2_S5000x2_1_0_0_1_n_n none (truncf .bf16 x bitsLt_bf16_f32) (truncf .bf16 wr bitsLt_bf16_f32) (constant S5000x2 .f32 0x00000000#32) (ix2 p q))
      + broadcastTo S5000x2 b broadcasts_S1x2_S5000x2 (ix2 p q) = _
  refine congrArg₂ (· + ·) (congrArg₂ (· + ·) ?_ ?_) ?_
  · exact PlainDot.matmul_zero_plain (M := 5000) (K := 128) (N := 2) none _ _ (ix2 p q)
  · exact PlainDot.matmul_zero_plain (M := 5000) (K := 128) (N := 2) none _ _ (ix2 p q)
  · exact broadcastTo_1b_ab_apply (a := 5000) (b := 2) b broadcasts_S1x2_S5000x2 p q

section
variable (V : (c : Dev nD) → (b : Ref sig .tc) → Buf (Elt Ideal) ((c : Thread nD τ).loc b))

/-- This head's weights and bias row as the region finds them. -/
abbrev aWl (c : Dev nD) : Sage.Mat 128 2 := V c main_v75
abbrev aWr (c : Dev nD) : Sage.Mat 128 2 := V c main_v76
abbrev aB (c : Dev nD) : Sage.Mat 1 2 := V c main_v80

theorem rdWl (c : Dev nD) (t : Fin cfg3.N) (k : Fin 128) (q : Fin 2) : iblk3 V c 5 t (ix2 k q) = V c main_v75 (ix2 k q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v75 (((cfg3.win 5).blk t).view.emb (ix2 k q)) = V c main_v75 (ix2 k q)
  refine congrArg (V c main_v75) (funext fun a => Fin.ext ?_)
  match a with
  | ⟨0, _⟩ => show win3_5.index t (0 : Fin 2) * 128 + 1 * k.val = k.val; omega
  | ⟨1, _⟩ => show win3_5.index t (1 : Fin 2) * 2 + 1 * q.val = q.val; omega

theorem rdWr (c : Dev nD) (t : Fin cfg3.N) (k : Fin 128) (q : Fin 2) : iblk3 V c 6 t (ix2 k q) = V c main_v76 (ix2 k q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v76 (((cfg3.win 6).blk t).view.emb (ix2 k q)) = V c main_v76 (ix2 k q)
  refine congrArg (V c main_v76) (funext fun a => Fin.ext ?_)
  match a with
  | ⟨0, _⟩ => show win3_6.index t (0 : Fin 2) * 128 + 1 * k.val = k.val; omega
  | ⟨1, _⟩ => show win3_6.index t (1 : Fin 2) * 2 + 1 * q.val = q.val; omega

theorem rdB (c : Dev nD) (t : Fin cfg3.N) (q : Fin 2) : iblk3 V c 7 t (ix2 (0 : Fin 1) q) = V c main_v80 (ix2 (0 : Fin 1) q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v80 (((cfg3.win 7).blk t).view.emb (ix2 (0 : Fin 1) q)) = V c main_v80 (ix2 (0 : Fin 1) q)
  refine congrArg (V c main_v80) (funext fun a => Fin.ext ?_)
  match a with
  | ⟨0, _⟩ => show win3_7.index t (0 : Fin 2) * 1 + 1 * 0 = 0; omega
  | ⟨1, _⟩ => show win3_7.index t (1 : Fin 2) * 2 + 1 * q.val = q.val; omega

/-- The head's output array as one function of the region's input arrays. -/
def out (c : Dev nD) : S50000x2.Idx → EReal :=
  Sage.lin (aA V c) (aX V c) (aWl V c) (aWr V c) (fun i => aB V c (ix2 (0 : Fin 1) (i 0)))

theorem emb_out (t : Fin cfg3.N) (p : Fin 5000) (q : Fin 2) :
    ∃ r : Fin 50000, r.val = t.val * 5000 + p.val ∧ ((cfg3.win 12).blk t).view.emb (ix2 p q) = ix2 r q := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  have ht : t.val < 10 := lt_of_lt_of_eq t.isLt (show cfg3.N = 10 from N_3)
  refine ⟨⟨t.val * 5000 + p.val, by have := p.isLt; omega⟩, rfl, funext fun a => Fin.ext ?_⟩
  match a with
  | ⟨0, _⟩ => show win3_12.index t (0 : Fin 2) * 5000 + 1 * p.val = t.val * 5000 + p.val; omega
  | ⟨1, _⟩ => show win3_12.index t (1 : Fin 2) * 2 + 1 * q.val = q.val; omega

theorem flushed_eq (c : Dev nD) (t : Fin cfg3.N) :
    (dat3 V c).flushed 12 t = ((cfg3.win 12).blk t).view.read (Elt Ideal) (out V c) := by
  show (cfg3.win 12).cut (grid3.coords t) ((dat3 V c).after 12 t) = _
  rw [after3_12]
  unfold out3_12
  rw [View.canon_unit_zero hz]
  simp only [View.ld_unit_zero (S := S5000x128) hz, View.ld_unit_zero (S := S128x2) hz, View.ld_unit_zero (S := S1x2) hz]
  funext j
  obtain ⟨p, q, rfl⟩ : ∃ (p : Fin 5000) (q : Fin 2), j = ix2 p q := ⟨j 0, j 1, eq_ix2 j⟩
  obtain ⟨r, hr, he⟩ := emb_out t p q
  show k3_pay5 (F := Ideal) (iblk3 V c 0 t) (iblk3 V c 1 t) (iblk3 V c 5 t) (iblk3 V c 6 t) (iblk3 V c 7 t) (ix2 p q)
    = out V c (((cfg3.win 12).blk t).view.emb (ix2 p q))
  rw [he]
  refine (pay_apply (iblk3 V c 0 t) (iblk3 V c 1 t) (iblk3 V c 5 t) (iblk3 V c 6 t) (iblk3 V c 7 t) p q).trans ?_
  show _ = (∑ k : Fin 128, aA V c (ix2 r k) * aWl V c (ix2 k q) + ∑ k : Fin 128, aX V c (ix2 r k) * aWr V c (ix2 k q)) + aB V c (ix2 (0 : Fin 1) q)
  refine congrArg₂ (· + ·) (congrArg₂ (· + ·) ?_ ?_) (rdB V c t q)
  · exact Finset.sum_congr rfl fun k _ => congrArg₂ (· * ·) (rdA V c t p k r hr) (rdWl V c t k q)
  · exact Finset.sum_congr rfl fun k _ => congrArg₂ (· * ·) (rdX V c t p k r hr) (rdWr V c t k q)

theorem mem_blk (t : Fin cfg3.N) (i : S50000x2.Idx) :
    i ∈ ((cfg3.win 12).blk t).view.set ↔ ∀ a : Fin 2, win3_12.index t a * S5000x2.size a ≤ (i a).val ∧ (i a).val < win3_12.index t a * S5000x2.size a + S5000x2.size a := by
  show i ∈ ((View.whole main_v82_1).slice (win3_12.rect t)).set ↔ _
  rw [View.set_slice_whole, Rect.mem_set_unit]
  exact Iff.rfl

theorem cover (i : S50000x2.Idx) : ∃ t : Fin cfg3.N, (cfg3.win 12).flush t = true ∧ i ∈ ((cfg3.win 12).blk t).view.set := by
  have hi0 : (i 0).val < 50000 := (i 0).isLt
  have hi1 : (i 1).val < 2 := (i 1).isLt
  refine ⟨⟨(i 0).val / 5000, by rw [show cfg3.N = 10 from N_3]; omega⟩, flush3_12 _, ?_⟩
  rw [mem_blk]
  have hf := idx_facts ⟨(i 0).val / 5000, by rw [show cfg3.N = 10 from N_3]; omega⟩
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := hf
  intro a
  match a with
  | ⟨0, _⟩ =>
    show win3_12.index _ (0 : Fin 2) * 5000 ≤ (i 0).val ∧ (i 0).val < win3_12.index _ (0 : Fin 2) * 5000 + 5000
    rw [e12_0]; show (i 0).val / 5000 * 5000 ≤ (i 0).val ∧ (i 0).val < (i 0).val / 5000 * 5000 + 5000; omega
  | ⟨1, _⟩ =>
    show win3_12.index _ (1 : Fin 2) * 2 ≤ (i 1).val ∧ (i 1).val < win3_12.index _ (1 : Fin 2) * 2 + 2
    rw [e12_1]; omega

/-- THE HEAD'S ARRAY after the region. -/
theorem final (c : Dev nD) : (dat3 V c).arrAt 12 cfg3.N = out V c :=
  (dat3 V c).arrAt_eq_of_cover 12 (out V c) (fun t _ => flushed_eq V c t) (cover)

end

end Sex

/-! # The head with 5 outputs -/

namespace Eth

/-- Entry `(p, q)` of the stored block: the two products' sums and the bias row's entry `q`. -/
theorem pay_apply (a x : Vec Ideal S5000x128 .f32) (wl wr : Vec Ideal S128x5 .f32) (b : Vec Ideal S1x5 .f32)
    (p : Fin 5000) (q : Fin 5) :
    k3_pay1 (F := Ideal) (k3_pay2 a) (k3_pay3 x) wl wr b (ix2 p q)
      = (∑ k : Fin 128, a (ix2 p k) * wl (ix2 k q) + ∑ k : Fin 128, x (ix2 p k) * wr (ix2 k q)) + b (ix2 (0 : Fin 1) q) := by
  unfold k3_pay1 k3_pay2 k3_pay3
  simp only [shapeCast_self]
  show (FloatOps.matmul (F := Ideal) dot_S5000x128_S128x5_S5000x5_1_0_0_1_n_n none (truncf .bf16 a bitsLt_bf16_f32) (truncf .bf16 wl bitsLt_bf16_f32) (constant S5000x5 .f32 0x00000000#32) (ix2 p q)
      + FloatOps.matmul (F := Ideal) dot_S5000x128_S128x5_S5000x5_1_0_0_1_n_n none (truncf .bf16 x bitsLt_bf16_f32) (truncf .bf16 wr bitsLt_bf16_f32) (constant S5000x5 .f32 0x00000000#32) (ix2 p q))
      + broadcastTo S5000x5 b broadcasts_S1x5_S5000x5 (ix2 p q) = _
  refine congrArg₂ (· + ·) (congrArg₂ (· + ·) ?_ ?_) ?_
  · exact PlainDot.matmul_zero_plain (M := 5000) (K := 128) (N := 5) none _ _ (ix2 p q)
  · exact PlainDot.matmul_zero_plain (M := 5000) (K := 128) (N := 5) none _ _ (ix2 p q)
  · exact broadcastTo_1b_ab_apply (a := 5000) (b := 5) b broadcasts_S1x5_S5000x5 p q

section
variable (V : (c : Dev nD) → (b : Ref sig .tc) → Buf (Elt Ideal) ((c : Thread nD τ).loc b))

/-- This head's weights and bias row as the region finds them. -/
abbrev aWl (c : Dev nD) : Sage.Mat 128 5 := V c main_v77
abbrev aWr (c : Dev nD) : Sage.Mat 128 5 := V c main_v78
abbrev aB (c : Dev nD) : Sage.Mat 1 5 := V c main_v81

theorem rdWl (c : Dev nD) (t : Fin cfg3.N) (k : Fin 128) (q : Fin 5) : iblk3 V c 8 t (ix2 k q) = V c main_v77 (ix2 k q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v77 (((cfg3.win 8).blk t).view.emb (ix2 k q)) = V c main_v77 (ix2 k q)
  refine congrArg (V c main_v77) (funext fun a => Fin.ext ?_)
  match a with
  | ⟨0, _⟩ => show win3_8.index t (0 : Fin 2) * 128 + 1 * k.val = k.val; omega
  | ⟨1, _⟩ => show win3_8.index t (1 : Fin 2) * 5 + 1 * q.val = q.val; omega

theorem rdWr (c : Dev nD) (t : Fin cfg3.N) (k : Fin 128) (q : Fin 5) : iblk3 V c 9 t (ix2 k q) = V c main_v78 (ix2 k q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v78 (((cfg3.win 9).blk t).view.emb (ix2 k q)) = V c main_v78 (ix2 k q)
  refine congrArg (V c main_v78) (funext fun a => Fin.ext ?_)
  match a with
  | ⟨0, _⟩ => show win3_9.index t (0 : Fin 2) * 128 + 1 * k.val = k.val; omega
  | ⟨1, _⟩ => show win3_9.index t (1 : Fin 2) * 5 + 1 * q.val = q.val; omega

theorem rdB (c : Dev nD) (t : Fin cfg3.N) (q : Fin 5) : iblk3 V c 10 t (ix2 (0 : Fin 1) q) = V c main_v81 (ix2 (0 : Fin 1) q) := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v81 (((cfg3.win 10).blk t).view.emb (ix2 (0 : Fin 1) q)) = V c main_v81 (ix2 (0 : Fin 1) q)
  refine congrArg (V c main_v81) (funext fun a => Fin.ext ?_)
  match a with
  | ⟨0, _⟩ => show win3_10.index t (0 : Fin 2) * 1 + 1 * 0 = 0; omega
  | ⟨1, _⟩ => show win3_10.index t (1 : Fin 2) * 5 + 1 * q.val = q.val; omega

/-- The head's output array as one function of the region's input arrays. -/
def out (c : Dev nD) : S50000x5.Idx → EReal :=
  Sage.lin (aA V c) (aX V c) (aWl V c) (aWr V c) (fun i => aB V c (ix2 (0 : Fin 1) (i 0)))

theorem emb_out (t : Fin cfg3.N) (p : Fin 5000) (q : Fin 5) :
    ∃ r : Fin 50000, r.val = t.val * 5000 + p.val ∧ ((cfg3.win 13).blk t).view.emb (ix2 p q) = ix2 r q := by
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := idx_facts t
  have ht : t.val < 10 := lt_of_lt_of_eq t.isLt (show cfg3.N = 10 from N_3)
  refine ⟨⟨t.val * 5000 + p.val, by have := p.isLt; omega⟩, rfl, funext fun a => Fin.ext ?_⟩
  match a with
  | ⟨0, _⟩ => show win3_13.index t (0 : Fin 2) * 5000 + 1 * p.val = t.val * 5000 + p.val; omega
  | ⟨1, _⟩ => show win3_13.index t (1 : Fin 2) * 5 + 1 * q.val = q.val; omega

theorem flushed_eq (c : Dev nD) (t : Fin cfg3.N) :
    (dat3 V c).flushed 13 t = ((cfg3.win 13).blk t).view.read (Elt Ideal) (out V c) := by
  show (cfg3.win 13).cut (grid3.coords t) ((dat3 V c).after 13 t) = _
  rw [after3_13]
  unfold out3_13
  rw [View.canon_unit_zero hz]
  simp only [View.ld_unit_zero (S := S5000x128) hz, View.ld_unit_zero (S := S128x5) hz, View.ld_unit_zero (S := S1x5) hz]
  funext j
  obtain ⟨p, q, rfl⟩ : ∃ (p : Fin 5000) (q : Fin 5), j = ix2 p q := ⟨j 0, j 1, eq_ix2 j⟩
  obtain ⟨r, hr, he⟩ := emb_out t p q
  show k3_pay1 (F := Ideal) (k3_pay2 (iblk3 V c 0 t)) (k3_pay3 (iblk3 V c 1 t)) (iblk3 V c 8 t) (iblk3 V c 9 t) (iblk3 V c 10 t) (ix2 p q)
    = out V c (((cfg3.win 13).blk t).view.emb (ix2 p q))
  rw [he]
  refine (pay_apply (iblk3 V c 0 t) (iblk3 V c 1 t) (iblk3 V c 8 t) (iblk3 V c 9 t) (iblk3 V c 10 t) p q).trans ?_
  show _ = (∑ k : Fin 128, aA V c (ix2 r k) * aWl V c (ix2 k q) + ∑ k : Fin 128, aX V c (ix2 r k) * aWr V c (ix2 k q)) + aB V c (ix2 (0 : Fin 1) q)
  refine congrArg₂ (· + ·) (congrArg₂ (· + ·) ?_ ?_) (rdB V c t q)
  · exact Finset.sum_congr rfl fun k _ => congrArg₂ (· * ·) (rdA V c t p k r hr) (rdWl V c t k q)
  · exact Finset.sum_congr rfl fun k _ => congrArg₂ (· * ·) (rdX V c t p k r hr) (rdWr V c t k q)

theorem mem_blk (t : Fin cfg3.N) (i : S50000x5.Idx) :
    i ∈ ((cfg3.win 13).blk t).view.set ↔ ∀ a : Fin 2, win3_13.index t a * S5000x5.size a ≤ (i a).val ∧ (i a).val < win3_13.index t a * S5000x5.size a + S5000x5.size a := by
  show i ∈ ((View.whole main_v82_2).slice (win3_13.rect t)).set ↔ _
  rw [View.set_slice_whole, Rect.mem_set_unit]
  exact Iff.rfl

theorem cover (i : S50000x5.Idx) : ∃ t : Fin cfg3.N, (cfg3.win 13).flush t = true ∧ i ∈ ((cfg3.win 13).blk t).view.set := by
  have hi0 : (i 0).val < 50000 := (i 0).isLt
  have hi1 : (i 1).val < 5 := (i 1).isLt
  refine ⟨⟨(i 0).val / 5000, by rw [show cfg3.N = 10 from N_3]; omega⟩, flush3_13 _, ?_⟩
  rw [mem_blk]
  have hf := idx_facts ⟨(i 0).val / 5000, by rw [show cfg3.N = 10 from N_3]; omega⟩
  obtain ⟨e11_0, e11_1, e12_0, e12_1, e13_0, e13_1, e0_0, e0_1, e1_0, e1_1, e2_0, e2_1, e3_0, e3_1, e4_0, e4_1, e5_0, e5_1, e6_0, e6_1, e7_0, e7_1, e8_0, e8_1, e9_0, e9_1, e10_0, e10_1⟩ := hf
  intro a
  match a with
  | ⟨0, _⟩ =>
    show win3_13.index _ (0 : Fin 2) * 5000 ≤ (i 0).val ∧ (i 0).val < win3_13.index _ (0 : Fin 2) * 5000 + 5000
    rw [e13_0]; show (i 0).val / 5000 * 5000 ≤ (i 0).val ∧ (i 0).val < (i 0).val / 5000 * 5000 + 5000; omega
  | ⟨1, _⟩ =>
    show win3_13.index _ (1 : Fin 2) * 5 ≤ (i 1).val ∧ (i 1).val < win3_13.index _ (1 : Fin 2) * 5 + 5
    rw [e13_1]; omega

/-- THE HEAD'S ARRAY after the region. -/
theorem final (c : Dev nD) : (dat3 V c).arrAt 13 cfg3.N = out V c :=
  (dat3 V c).arrAt_eq_of_cover 13 (out V c) (fun t _ => flushed_eq V c t) (cover)

end

end Eth

end Cert.KernelIdeal.KValue.R3

end
-- ==== Proof.KFinal.lean ====
/-
  The kernel program's three results as closed functions of its arguments.

  Region by region: the first region's output is the first hidden layer of the input features and their
  neighbourhood mean; the next stretch takes that output's neighbourhood mean and the second region makes the second
  hidden layer of the two; likewise the third; the last region applies the three linear heads to the third hidden
  layer and its neighbourhood mean.  Composed, the three result arrays are `Sage.head` of `Sage.hidden` of the
  arguments, with the weights transposed by the host and the bias rows read back as the bias vectors.
-/
import proofs.«172742_j42709154791575_1_alg».proof.Proof.KRun
import proofs.«172742_j42709154791575_1_alg».proof.Proof.KHost
import proofs.«172742_j42709154791575_1_alg».proof.Proof.KRegion0
import proofs.«172742_j42709154791575_1_alg».proof.Proof.KRegion1
import proofs.«172742_j42709154791575_1_alg».proof.Proof.KRegion2
import proofs.«172742_j42709154791575_1_alg».proof.Proof.KRegion3

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

/-- A bias vector reshaped to a one-row matrix and read back along that row is the vector. -/
theorem bias_row {a : Nat} (x : (⟨1, ![a]⟩ : Shape).Idx → EReal) (h : (⟨1, ![a]⟩ : Shape).ShapeCasts ⟨2, ![1, a]⟩) :
    (fun i : (⟨1, ![a]⟩ : Shape).Idx => shapeCast ⟨2, ![1, a]⟩ x h (ix2 (0 : Fin 1) (i 0))) = x :=
  funext fun i => (shapeCast_a_1a_apply x h 0 (i 0)).trans (congrArg x (eq_ix1 i).symm)

variable (m : (ℓ : Loc nD τ sig) → Buf (Elt Ideal) ℓ) (ρ : Dev nD → PrngReg) (c : Dev nD)

/-- The first hidden layer. -/
def hid1 : Sage.Mat 50000 128 :=
  Sage.linRelu (agg (arg m c main_arg1) (arg m c main_arg0)) (arg m c main_arg0) (T128 (arg m c main_arg2)) (T128 (arg m c main_arg3)) (arg m c main_arg4)
/-- The second hidden layer. -/
def hid2 : Sage.Mat 50000 128 :=
  Sage.linRelu (agg (arg m c main_arg1) (hid1 m c)) (hid1 m c) (T128 (arg m c main_arg5)) (T128 (arg m c main_arg6)) (arg m c main_arg7)
/-- The third hidden layer. -/
def hid3 : Sage.Mat 50000 128 :=
  Sage.linRelu (agg (arg m c main_arg1) (hid2 m c)) (hid2 m c) (T128 (arg m c main_arg8)) (T128 (arg m c main_arg9)) (arg m c main_arg10)

theorem hid3_eq : hid3 m c = Sage.hidden (agg (arg m c main_arg1)) (arg m c main_arg0) (T128 (arg m c main_arg2)) (T128 (arg m c main_arg3)) (arg m c main_arg4) (T128 (arg m c main_arg5)) (T128 (arg m c main_arg6)) (arg m c main_arg7) (T128 (arg m c main_arg8)) (T128 (arg m c main_arg9)) (arg m c main_arg10) := rfl

/-- Region 0 leaves the first hidden layer. -/
theorem h1_eq : W2 m ρ c (Proc.devRef .tc main_v28) = hid1 m c := by
  refine (W2_arr m ρ c 5).trans ((R0.final (V1 m ρ) c).trans ?_)
  unfold R0.layer hid1
  refine congr (congr (congr (congr (congrArg (Sage.linRelu (n := 50000) (d := 128)) (w1_A m ρ c)) (w1_X m ρ c)) (w1_Wl m ρ c)) (w1_Wr m ρ c)) ?_
  funext i
  exact (congrFun (w1_B m ρ c) (ix2 (0 : Fin 1) (i 0))).trans (congrFun (bias_row (a := 128) (arg m c main_arg4) shapeCasts_S128_S1x128) i)

/-- Region 1 leaves the second hidden layer. -/
theorem h2_eq : W4 m ρ c (Proc.devRef .tc main_v44) = hid2 m c := by
  refine (W4_arr m ρ c 5).trans ((R1.final (V3 m ρ) c).trans ?_)
  unfold R1.layer hid2
  rw [← h1_eq m ρ c]
  refine congr (congr (congr (congr (congrArg (Sage.linRelu (n := 50000) (d := 128)) (w3_A m ρ c)) (w3_X m ρ c)) (w3_Wl m ρ c)) (w3_Wr m ρ c)) ?_
  funext i
  exact (congrFun (w3_B m ρ c) (ix2 (0 : Fin 1) (i 0))).trans (congrFun (bias_row (a := 128) (arg m c main_arg7) shapeCasts_S128_S1x128) i)

/-- Region 2 leaves the third hidden layer. -/
theorem h3_eq : W6 m ρ c (Proc.devRef .tc main_v60) = hid3 m c := by
  refine (W6_arr m ρ c 5).trans ((R2.final (V5 m ρ) c).trans ?_)
  unfold R2.layer hid3
  rw [← h2_eq m ρ c]
  refine congr (congr (congr (congr (congrArg (Sage.linRelu (n := 50000) (d := 128)) (w5_A m ρ c)) (w5_X m ρ c)) (w5_Wl m ρ c)) (w5_Wr m ρ c)) ?_
  funext i
  exact (congrFun (w5_B m ρ c) (ix2 (0 : Fin 1) (i 0))).trans (congrFun (bias_row (a := 128) (arg m c main_arg10) shapeCasts_S128_S1x128) i)

/-- The three results. -/
def res0 : Sage.Mat 50000 21 := Sage.head (agg (arg m c main_arg1)) (hid3 m c) (T21 (arg m c main_arg11)) (T21 (arg m c main_arg12)) (arg m c main_arg13)
def res1 : Sage.Mat 50000 2 := Sage.head (agg (arg m c main_arg1)) (hid3 m c) (T2 (arg m c main_arg14)) (T2 (arg m c main_arg15)) (arg m c main_arg16)
def res2 : Sage.Mat 50000 5 := Sage.head (agg (arg m c main_arg1)) (hid3 m c) (T5 (arg m c main_arg17)) (T5 (arg m c main_arg18)) (arg m c main_arg19)

theorem out0_eq : W8 m ρ c (Proc.devRef .tc main_v82_0) = res0 m c := by
  refine (W8_arr m ρ c 11).trans ((R3.Age.final (V7 m ρ) c).trans ?_)
  unfold R3.Age.out res0 Sage.head
  rw [← h3_eq m ρ c]
  refine congr (congr (congr (congr (congrArg (Sage.lin (n := 50000) (d := 21)) (w7_A m ρ c)) (w7_X m ρ c)) (w7_main_v73 m ρ c)) (w7_main_v74 m ρ c)) ?_
  funext i
  exact (congrFun (w7_main_v79 m ρ c) (ix2 (0 : Fin 1) (i 0))).trans (congrFun (bias_row (a := 21) (arg m c main_arg13) shapeCasts_S21_S1x21) i)

theorem out1_eq : W8 m ρ c (Proc.devRef .tc main_v82_1) = res1 m c := by
  refine (W8_arr m ρ c 12).trans ((R3.Sex.final (V7 m ρ) c).trans ?_)
  unfold R3.Sex.out res1 Sage.head
  rw [← h3_eq m ρ c]
  refine congr (congr (congr (congr (congrArg (Sage.lin (n := 50000) (d := 2)) (w7_A m ρ c)) (w7_X m ρ c)) (w7_main_v75 m ρ c)) (w7_main_v76 m ρ c)) ?_
  funext i
  exact (congrFun (w7_main_v80 m ρ c) (ix2 (0 : Fin 1) (i 0))).trans (congrFun (bias_row (a := 2) (arg m c main_arg16) shapeCasts_S2_S1x2) i)

theorem out2_eq : W8 m ρ c (Proc.devRef .tc main_v82_2) = res2 m c := by
  refine (W8_arr m ρ c 13).trans ((R3.Eth.final (V7 m ρ) c).trans ?_)
  unfold R3.Eth.out res2 Sage.head
  rw [← h3_eq m ρ c]
  refine congr (congr (congr (congr (congrArg (Sage.lin (n := 50000) (d := 5)) (w7_A m ρ c)) (w7_X m ρ c)) (w7_main_v77 m ρ c)) (w7_main_v78 m ρ c)) ?_
  funext i
  exact (congrFun (w7_main_v81 m ρ c) (ix2 (0 : Fin 1) (i 0))).trans (congrFun (bias_row (a := 5) (arg m c main_arg19) shapeCasts_S5_S1x5) i)

/-- THE RUN, READ: every weakly fair execution of the kernel program terminates with the three results at those
    functions of the arguments, and the arguments unchanged. -/
theorem run : θ_run defs (onTc (τ := τ) (main (F := Ideal))) ⟨m, fun _ => 0, ρ⟩ (fun r => ∀ c : Dev nD,
      r.2.mem ((c.tc : Thread nD τ).loc main_v82_0) = res0 m c
      ∧ r.2.mem ((c.tc : Thread nD τ).loc main_v82_1) = res1 m c
      ∧ r.2.mem ((c.tc : Thread nD τ).loc main_v82_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c main_v82_0 (by decide)).trans (out0_eq m ρ c),
     (h c main_v82_1 (by decide)).trans (out1_eq m ρ c),
     (h c main_v82_2 (by decide)).trans (out2_eq m ρ c),
     (h c main_arg0 (by decide)).trans (W8_main_arg0 m ρ c),
     (h c main_arg1 (by decide)).trans (W8_main_arg1 m ρ c),
     (h c main_arg2 (by decide)).trans (W8_main_arg2 m ρ c),
     (h c main_arg3 (by decide)).trans (W8_main_arg3 m ρ c),
     (h c main_arg4 (by decide)).trans (W8_main_arg4 m ρ c),
     (h c main_arg5 (by decide)).trans (W8_main_arg5 m ρ c),
     (h c main_arg6 (by decide)).trans (W8_main_arg6 m ρ c),
     (h c main_arg7 (by decide)).trans (W8_main_arg7 m ρ c),
     (h c main_arg8 (by decide)).trans (W8_main_arg8 m ρ c),
     (h c main_arg9 (by decide)).trans (W8_main_arg9 m ρ c),
     (h c main_arg10 (by decide)).trans (W8_main_arg10 m ρ c),
     (h c main_arg11 (by decide)).trans (W8_main_arg11 m ρ c),
     (h c main_arg12 (by decide)).trans (W8_main_arg12 m ρ c),
     (h c main_arg13 (by decide)).trans (W8_main_arg13 m ρ c),
     (h c main_arg14 (by decide)).trans (W8_main_arg14 m ρ c),
     (h c main_arg15 (by decide)).trans (W8_main_arg15 m ρ c),
     (h c main_arg16 (by decide)).trans (W8_main_arg16 m ρ c),
     (h c main_arg17 (by decide)).trans (W8_main_arg17 m ρ c),
     (h c main_arg18 (by decide)).trans (W8_main_arg18 m ρ c),
     (h c main_arg19 (by decide)).trans (W8_main_arg19 m ρ c)⟩)
    (run_named m ρ)

end Cert.KernelIdeal.KValue

end
-- ==== Proof.RefDefs.lean ====
/-
  The host computations of the reference named once, at the exact extended-real instance: the edges' source and
  target rows, the reciprocal in-degree (never below one), the neighbourhood mean of a feature array (a gather of the
  source rows, a sum of them into the target rows, the product with the reciprocal in-degree), and the transposes of
  the weight matrices.  Every later statement about the program speaks of these names and never opens them.
-/
import proofs.«172742_j42709154791575_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe

/-- The edge list as the program holds it: row 0 the sources, row 1 the targets. -/
abbrev Edges : Type := (⟨S2x1600000, .i32⟩ : BufTy).Contents (Elt Ideal)

/-- The edges' sources. -/
def src (e : Edges) : IVec S1600000 32 :=
  shapeCast S1600000 (extractStridedSlice S1x1600000 ![0, 0] e slices_S2x1600000_S1x1600000_0_0) shapeCasts_S1x1600000_S1600000

/-- The edges' targets. -/
def dst (e : Edges) : IVec S1600000 32 :=
  shapeCast S1600000 (extractStridedSlice S1x1600000 ![1, 0] e slices_S2x1600000_S1x1600000_1_0) shapeCasts_S1x1600000_S1600000

/-- One over the in-degree of each node, the in-degree taken as at least one; a column. -/
def invDeg (e : Edges) : FVec Ideal S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S1600000x1_S1600000_n_0_0_1
          (broadcastInDim S50000 ![] bcast_S_S50000 (constant S_ .f32 0x00000000#32))
          (broadcastInDim S1600000x1 ![0] bcast_S1600000_S1600000x1_0 (dst e))
          (broadcastInDim S1600000 ![] bcast_S_S1600000 (constant S_ .f32 0x3F800000#32)))
        (broadcastInDim S50000 ![] bcast_S_S50000 (constant S_ .f32 0x3F800000#32))))

/-- The neighbourhood mean of the feature array `h`: for each node, the sum of the rows of `h` at the sources of
    the edges that end in it, times the reciprocal in-degree. -/
def agg (e : Edges) (h : FVec Ideal S50000x128 .f32) : FVec Ideal S50000x128 .f32 :=
  mulf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 (dst e))
      (Host.gather gather_S50000x128_S1600000x1_S1600000x128_1_0_n_n_0_1_1128 h
        (broadcastInDim S1600000x1 ![0] bcast_S1600000_S1600000x1_0
          (select (cmpi .slt (src e) (broadcastInDim S1600000 ![] bcast_S_S1600000 (constantI S_ 32 0#32)))
            (addi (src e) (broadcastInDim S1600000 ![] bcast_S_S1600000 (constantI S_ 32 50000#32)))
            (src e)))))
    (broadcastInDim S50000x128 ![0, 1] bcast_S50000x1_S50000x128_0_1 (invDeg e))

/-- The transposes of the weight matrices, `d × 128` to `128 × d`. -/
def T128 (w : FVec Ideal S128x128 .f32) : FVec Ideal S128x128 .f32 := transpose S128x128 [1, 0] w transposes_S128x128_S128x128_1_0
def T21 (w : FVec Ideal S21x128 .f32) : FVec Ideal S128x21 .f32 := transpose S128x21 [1, 0] w transposes_S21x128_S128x21_1_0
def T2 (w : FVec Ideal S2x128 .f32) : FVec Ideal S128x2 .f32 := transpose S128x2 [1, 0] w transposes_S2x128_S128x2_1_0
def T5 (w : FVec Ideal S5x128 .f32) : FVec Ideal S128x5 .f32 := transpose S128x5 [1, 0] w transposes_S5x128_S128x5_1_0

end Cert.ReferenceIdeal.RefValue

end
-- ==== Proof.RefValue.lean ====
/-
  The reference program's three results as the mathematics of the network, at the exact extended-real instance.

  Each result of the reference's run is a closed term of the argument arrays.  That term is first regrouped, with no
  computation, into the program's own layers: the neighbourhood mean, the two matrix products with the transposed
  weights, the bias row broadcast to every node and added between the two products, and, in the three hidden layers,
  the maximum with a zero array.  Then each layer is read at an index: a product with a `128 × d` matrix is the sum
  over the 128 positions of the contracted axis, the twice-broadcast bias row is its entry at the column, the zero
  array is `0`, and `(P + b) + Q = (P + Q) + b`.  The neighbourhood mean and the transposes are never opened.
-/
import proofs.«172742_j42709154791575_1_alg».proof.Proof.Gen.ReferenceIdeal.Run
import proofs.«172742_j42709154791575_1_alg».proof.Proof.RefDefs
import proofs.«172742_j42709154791575_1_alg».proof.Proof.Spec
import proofs.«172742_j42709154791575_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.TcCoe
  Idealize.ShloMosaic.ValueIdx Idealize.SL.Sem

/-! ## The pieces of a layer at an index -/

/-- A row of `d` entries (`d` not one) broadcast to one row of a `1 × d` array and then to every row of an
    `n × d` array reads, at `(r, c)`, the row's entry `c`. -/
theorem bias_apply {α : Type} {n d : Nat} (hd : d ≠ 1)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (b : (⟨1, ![d]⟩ : Shape).Idx → α) (i : (⟨2, ![n, d]⟩ : Shape).Idx) :
    broadcastInDim ⟨2, ![n, d]⟩ ![0, 1] h2 (broadcastInDim ⟨2, ![1, d]⟩ ![1] h1 b) i = b (ix1 (i 1)) := by
  refine (broadcastInDim_apply _ h2 _ i (ix2 (n0 := 1) (n1 := d) ⟨0, Nat.one_pos⟩ (i 1)) (fun a => match a with
    | ⟨0, _⟩ => by show 0 = if (1 : Nat) = 1 then 0 else (i 0).val; rw [if_pos rfl]
    | ⟨1, _⟩ => by show (i 1).val = if d = 1 then 0 else (i 1).val; rw [if_neg hd])).trans ?_
  exact broadcastInDim_apply _ h1 b _ (ix1 (i 1)) (fun a => match a with
    | ⟨0, _⟩ => by show (i 1).val = if d = 1 then 0 else (i 1).val; rw [if_neg hd])

/-- The affine part of a layer as the reference computes it: the product of the neighbourhood means `A` with `Wl`,
    plus the broadcast bias row, plus the product of the features `X` with `Wr`. -/
def linR {d : Nat} (D : DotDims ⟨2, ![50000, 128]⟩ ⟨2, ![128, d]⟩ ⟨2, ![50000, d]⟩)
    (h1 : (⟨1, ![d]⟩ : Shape).BroadcastsInDim ⟨2, ![1, d]⟩ (![1] : Fin 1 → Fin 2))
    (h2 : (⟨2, ![1, d]⟩ : Shape).BroadcastsInDim ⟨2, ![50000, d]⟩ (![0, 1] : Fin 2 → Fin 2))
    (A X : FVec Ideal ⟨2, ![50000, 128]⟩ .f32) (Wl Wr : FVec Ideal ⟨2, ![128, d]⟩ .f32) (b : FVec Ideal ⟨1, ![d]⟩ .f32) :
    FVec Ideal ⟨2, ![50000, d]⟩ .f32 :=
  addf (addf (Host.dotGeneral D none A Wl) (broadcastInDim ⟨2, ![50000, d]⟩ ![0, 1] h2 (broadcastInDim ⟨2, ![1, d]⟩ ![1] h1 b)))
    (Host.dotGeneral D none X Wr)

/-- With the dimension numbers of a plain matrix product, the reference's affine part is the specification's: both
    products are the sums over the 128 contracted positions, and the bias may be added last. -/
theorem linR_eq {d : Nat} (hd : d ≠ 1) (D : DotDims ⟨2, ![50000, 128]⟩ ⟨2, ![128, d]⟩ ⟨2, ![50000, d]⟩)
    (hD : D = DotDims.plain 50000 128 d)
    (h1 : (⟨1, ![d]⟩ : Shape).BroadcastsInDim ⟨2, ![1, d]⟩ (![1] : Fin 1 → Fin 2))
    (h2 : (⟨2, ![1, d]⟩ : Shape).BroadcastsInDim ⟨2, ![50000, d]⟩ (![0, 1] : Fin 2 → Fin 2))
    (A X : FVec Ideal ⟨2, ![50000, 128]⟩ .f32) (Wl Wr : FVec Ideal ⟨2, ![128, d]⟩ .f32) (b : FVec Ideal ⟨1, ![d]⟩ .f32) :
    linR D h1 h2 A X Wl Wr b = Sage.lin A X Wl Wr b := by
  subst hD
  funext i
  refine (congrArg₂ (· + ·) (congrArg₂ (· + ·) (PlainDot.dotGeneral_plain none .single A Wl i) (bias_apply hd h1 h2 b i))
    (PlainDot.dotGeneral_plain none .single X Wr i)).trans ?_
  exact Sage.add_bias_comm _ _ _

/-- The maximum with the zero array, as the reference spells `relu`. -/
def reluR (z : FVec Ideal S50000x128 .f32) : FVec Ideal S50000x128 .f32 :=
  maximumf z (broadcastInDim S50000x128 ![] bcast_S_S50000x128 (constant S_ .f32 0x00000000#32))

/-- At an index it is the maximum with `0`: the zero word encodes `0`. -/
theorem reluR_apply (z : FVec Ideal S50000x128 .f32) (i : S50000x128.Idx) : reluR z i = max (z i) 0 := by
  show max (z i) (Ideal.ofBits .f32 0x00000000#32) = max (z i) 0
  rw [Ideal.ofBits_zero_f32]

/-! ## The program's layers -/

/-- A hidden layer as the reference computes it from the edge list, the features and the untransposed weights. -/
def layerR (e : Edges) (h : FVec Ideal S50000x128 .f32) (Wl Wr : FVec Ideal S128x128 .f32) (b : FVec Ideal S128 .f32) :
    FVec Ideal S50000x128 .f32 :=
  reluR (linR dot_S50000x128_S128x128_S50000x128_1_0_0_1_n_n bcast_S128_S1x128_1 bcast_S1x128_S50000x128_0_1
    (agg e h) h (T128 Wl) (T128 Wr) b)

theorem layerR_eq (e : Edges) (h : FVec Ideal S50000x128 .f32) (Wl Wr : FVec Ideal S128x128 .f32) (b : FVec Ideal S128 .f32) :
    layerR e h Wl Wr b = Sage.linRelu (agg e h) h (T128 Wl) (T128 Wr) b := by
  funext i
  refine (reluR_apply _ i).trans ?_
  exact congrArg (fun z : FVec Ideal S50000x128 .f32 => max (z i) 0)
    (linR_eq (d := 128) (by decide) dot_S50000x128_S128x128_S50000x128_1_0_0_1_n_n rfl bcast_S128_S1x128_1
      bcast_S1x128_S50000x128_0_1 (agg e h) h (T128 Wl) (T128 Wr) b)

/-- The three hidden layers stacked. -/
def hiddenR (e : Edges) (x : FVec Ideal S50000x128 .f32)
    (wl1 wr1 : FVec Ideal S128x128 .f32) (b1 : FVec Ideal S128 .f32)
    (wl2 wr2 : FVec Ideal S128x128 .f32) (b2 : FVec Ideal S128 .f32)
    (wl3 wr3 : FVec Ideal S128x128 .f32) (b3 : FVec Ideal S128 .f32) : FVec Ideal S50000x128 .f32 :=
  layerR e (layerR e (layerR e x wl1 wr1 b1) wl2 wr2 b2) wl3 wr3 b3

theorem hiddenR_eq (e : Edges) (x : FVec Ideal S50000x128 .f32)
    (wl1 wr1 : FVec Ideal S128x128 .f32) (b1 : FVec Ideal S128 .f32)
    (wl2 wr2 : FVec Ideal S128x128 .f32) (b2 : FVec Ideal S128 .f32)
    (wl3 wr3 : FVec Ideal S128x128 .f32) (b3 : FVec Ideal S128 .f32) :
    hiddenR e x wl1 wr1 b1 wl2 wr2 b2 wl3 wr3 b3
      = Sage.hidden (agg e) x (T128 wl1) (T128 wr1) b1 (T128 wl2) (T128 wr2) b2 (T128 wl3) (T128 wr3) b3 := by
  unfold hiddenR Sage.hidden
  rw [layerR_eq e x, layerR_eq e _ wl2, layerR_eq e _ wl3]

/-- The linear head with 21 outputs as the reference computes it. -/
def headR21 (e : Edges) (h : FVec Ideal S50000x128 .f32) (Wl Wr : FVec Ideal S21x128 .f32) (b : FVec Ideal S21 .f32) :
    FVec Ideal S50000x21 .f32 :=
  linR dot_S50000x128_S128x21_S50000x21_1_0_0_1_n_n bcast_S21_S1x21_1 bcast_S1x21_S50000x21_0_1
    (agg e h) h (T21 Wl) (T21 Wr) b

theorem headR21_eq (e : Edges) (h : FVec Ideal S50000x128 .f32) (Wl Wr : FVec Ideal S21x128 .f32) (b : FVec Ideal S21 .f32) :
    headR21 e h Wl Wr b = Sage.head (agg e) h (T21 Wl) (T21 Wr) b :=
  linR_eq (d := 21) (by decide) dot_S50000x128_S128x21_S50000x21_1_0_0_1_n_n rfl bcast_S21_S1x21_1
    bcast_S1x21_S50000x21_0_1 (agg e h) h (T21 Wl) (T21 Wr) b

/-- The linear head with 2 outputs as the reference computes it. -/
def headR2 (e : Edges) (h : FVec Ideal S50000x128 .f32) (Wl Wr : FVec Ideal S2x128 .f32) (b : FVec Ideal S2 .f32) :
    FVec Ideal S50000x2 .f32 :=
  linR dot_S50000x128_S128x2_S50000x2_1_0_0_1_n_n bcast_S2_S1x2_1 bcast_S1x2_S50000x2_0_1
    (agg e h) h (T2 Wl) (T2 Wr) b

theorem headR2_eq (e : Edges) (h : FVec Ideal S50000x128 .f32) (Wl Wr : FVec Ideal S2x128 .f32) (b : FVec Ideal S2 .f32) :
    headR2 e h Wl Wr b = Sage.head (agg e) h (T2 Wl) (T2 Wr) b :=
  linR_eq (d := 2) (by decide) dot_S50000x128_S128x2_S50000x2_1_0_0_1_n_n rfl bcast_S2_S1x2_1
    bcast_S1x2_S50000x2_0_1 (agg e h) h (T2 Wl) (T2 Wr) b

/-- The linear head with 5 outputs as the reference computes it. -/
def headR5 (e : Edges) (h : FVec Ideal S50000x128 .f32) (Wl Wr : FVec Ideal S5x128 .f32) (b : FVec Ideal S5 .f32) :
    FVec Ideal S50000x5 .f32 :=
  linR dot_S50000x128_S128x5_S50000x5_1_0_0_1_n_n bcast_S5_S1x5_1 bcast_S1x5_S50000x5_0_1
    (agg e h) h (T5 Wl) (T5 Wr) b

theorem headR5_eq (e : Edges) (h : FVec Ideal S50000x128 .f32) (Wl Wr : FVec Ideal S5x128 .f32) (b : FVec Ideal S5 .f32) :
    headR5 e h Wl Wr b = Sage.head (agg e) h (T5 Wl) (T5 Wr) b :=
  linR_eq (d := 5) (by decide) dot_S50000x128_S128x5_S50000x5_1_0_0_1_n_n rfl bcast_S5_S1x5_1
    bcast_S1x5_S50000x5_0_1 (agg e h) h (T5 Wl) (T5 Wr) b

/-! ## The run's three results

  Each result's term regroups into the layers above with nothing to compute: the two sides are the same term once
  the definitions are unfolded. -/

set_option maxRecDepth 8192 in
theorem res0_layers (m : (ℓ : Loc nD τ sig) → Buf (Elt Ideal) ℓ) (c : Dev nD) :
    Value.res_main_v95 (F := Ideal) m c
      = headR21 (m ((c.tc : Thread nD τ).loc main_arg1)) (hiddenR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) (m ((c.tc : Thread nD τ).loc main_arg13)) := by
  unfold res_main_v95
  rfl

set_option maxRecDepth 8192 in
theorem res1_layers (m : (ℓ : Loc nD τ sig) → Buf (Elt Ideal) ℓ) (c : Dev nD) :
    Value.res_main_v115 (F := Ideal) m c
      = headR2 (m ((c.tc : Thread nD τ).loc main_arg1)) (hiddenR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg14)) (m ((c.tc : Thread nD τ).loc main_arg15)) (m ((c.tc : Thread nD τ).loc main_arg16)) := by
  unfold res_main_v115
  rfl

set_option maxRecDepth 8192 in
theorem res2_layers (m : (ℓ : Loc nD τ sig) → Buf (Elt Ideal) ℓ) (c : Dev nD) :
    Value.res_main_v135 (F := Ideal) m c
      = headR5 (m ((c.tc : Thread nD τ).loc main_arg1)) (hiddenR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg17)) (m ((c.tc : Thread nD τ).loc main_arg18)) (m ((c.tc : Thread nD τ).loc main_arg19)) := by
  unfold res_main_v135
  rfl

/-- Result 0: the head with 21 outputs over the third hidden layer. -/
theorem out0 (m : (ℓ : Loc nD τ sig) → Buf (Elt Ideal) ℓ) (c : Dev nD) :
    Value.res_main_v95 (F := Ideal) m c
      = Sage.head (agg (m ((c.tc : Thread nD τ).loc main_arg1))) (Sage.hidden (agg (m ((c.tc : Thread nD τ).loc main_arg1))) (m ((c.tc : Thread nD τ).loc main_arg0)) (T128 (m ((c.tc : Thread nD τ).loc main_arg2))) (T128 (m ((c.tc : Thread nD τ).loc main_arg3))) (m ((c.tc : Thread nD τ).loc main_arg4)) (T128 (m ((c.tc : Thread nD τ).loc main_arg5))) (T128 (m ((c.tc : Thread nD τ).loc main_arg6))) (m ((c.tc : Thread nD τ).loc main_arg7)) (T128 (m ((c.tc : Thread nD τ).loc main_arg8))) (T128 (m ((c.tc : Thread nD τ).loc main_arg9))) (m ((c.tc : Thread nD τ).loc main_arg10))) (T21 (m ((c.tc : Thread nD τ).loc main_arg11))) (T21 (m ((c.tc : Thread nD τ).loc main_arg12))) (m ((c.tc : Thread nD τ).loc main_arg13)) := by
  refine (res0_layers m c).trans ?_
  rw [headR21_eq, hiddenR_eq]

/-- Result 1: the head with 2 outputs over the third hidden layer. -/
theorem out1 (m : (ℓ : Loc nD τ sig) → Buf (Elt Ideal) ℓ) (c : Dev nD) :
    Value.res_main_v115 (F := Ideal) m c
      = Sage.head (agg (m ((c.tc : Thread nD τ).loc main_arg1))) (Sage.hidden (agg (m ((c.tc : Thread nD τ).loc main_arg1))) (m ((c.tc : Thread nD τ).loc main_arg0)) (T128 (m ((c.tc : Thread nD τ).loc main_arg2))) (T128 (m ((c.tc : Thread nD τ).loc main_arg3))) (m ((c.tc : Thread nD τ).loc main_arg4)) (T128 (m ((c.tc : Thread nD τ).loc main_arg5))) (T128 (m ((c.tc : Thread nD τ).loc main_arg6))) (m ((c.tc : Thread nD τ).loc main_arg7)) (T128 (m ((c.tc : Thread nD τ).loc main_arg8))) (T128 (m ((c.tc : Thread nD τ).loc main_arg9))) (m ((c.tc : Thread nD τ).loc main_arg10))) (T2 (m ((c.tc : Thread nD τ).loc main_arg14))) (T2 (m ((c.tc : Thread nD τ).loc main_arg15))) (m ((c.tc : Thread nD τ).loc main_arg16)) := by
  refine (res1_layers m c).trans ?_
  rw [headR2_eq, hiddenR_eq]

/-- Result 2: the head with 5 outputs over the third hidden layer. -/
theorem out2 (m : (ℓ : Loc nD τ sig) → Buf (Elt Ideal) ℓ) (c : Dev nD) :
    Value.res_main_v135 (F := Ideal) m c
      = Sage.head (agg (m ((c.tc : Thread nD τ).loc main_arg1))) (Sage.hidden (agg (m ((c.tc : Thread nD τ).loc main_arg1))) (m ((c.tc : Thread nD τ).loc main_arg0)) (T128 (m ((c.tc : Thread nD τ).loc main_arg2))) (T128 (m ((c.tc : Thread nD τ).loc main_arg3))) (m ((c.tc : Thread nD τ).loc main_arg4)) (T128 (m ((c.tc : Thread nD τ).loc main_arg5))) (T128 (m ((c.tc : Thread nD τ).loc main_arg6))) (m ((c.tc : Thread nD τ).loc main_arg7)) (T128 (m ((c.tc : Thread nD τ).loc main_arg8))) (T128 (m ((c.tc : Thread nD τ).loc main_arg9))) (m ((c.tc : Thread nD τ).loc main_arg10))) (T5 (m ((c.tc : Thread nD τ).loc main_arg17))) (T5 (m ((c.tc : Thread nD τ).loc main_arg18))) (m ((c.tc : Thread nD τ).loc main_arg19)) := by
  refine (res2_layers m c).trans ?_
  rw [headR5_eq, hiddenR_eq]

end Cert.ReferenceIdeal.RefValue

end
-- ==== Proof.lean ====
/-
  The certificate: a three-layer SAGE network with three linear heads, tiled over the nodes in four kernel
  regions, against the plain jnp network.

  Both programs first compute, on the host, the reciprocal in-degree of every node and then, before each layer, the
  neighbourhood mean of the current features (a gather along the edges' sources, a sum into the edges' targets, the
  product with the reciprocal in-degree).  Those host computations are the same operations in both programs and are
  carried through the proof as one opaque function.  A layer is `A · Wl + X · Wr + b` of the features `X` and their
  neighbourhood mean `A`; the kernel forms it ten row blocks at a time, adds the bias last and rounds its operands to
  a narrower format first, the reference forms it whole and adds the bias between the two products.  On the extended
  reals the roundings are the identity, a product accumulated from zero is the plain sum, an entry of the layer
  depends only on its own row of `X` and `A`, and `(P + b) + Q = (P + Q) + b`: so the two programs compute the same
  three result arrays (`Sage.head` of `Sage.hidden`), entry by entry.  No finiteness of the inputs is needed.
-/
import proofs.«172742_j42709154791575_1_alg».proof.Defs
import proofs.«172742_j42709154791575_1_alg».proof.Proof.Gen.Kernel
import proofs.«172742_j42709154791575_1_alg».proof.Proof.Gen.Kernel.Frame
import proofs.«172742_j42709154791575_1_alg».proof.Proof.Gen.KernelIdeal
import proofs.«172742_j42709154791575_1_alg».proof.Proof.Gen.KernelIdeal.Frame
import proofs.«172742_j42709154791575_1_alg».proof.Proof.Gen.ReferenceIdeal
import proofs.«172742_j42709154791575_1_alg».proof.Proof.Gen.ReferenceIdeal.Run
import proofs.«172742_j42709154791575_1_alg».proof.Proof.Gen.Pre_finite_inputs
import proofs.«172742_j42709154791575_1_alg».proof.Proof.KFinal
import proofs.«172742_j42709154791575_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The neighbourhood mean is the same host computation in both programs. -/
theorem agg_eq (e : Cert.KernelIdeal.KValue.Edges) (h : FVec Ideal Cert.KernelIdeal.S50000x128 .f32) :
    Cert.ReferenceIdeal.RefValue.agg e h = Cert.KernelIdeal.KValue.agg e h := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both runs end with the three heads' arrays at `Sage.head` of `Sage.hidden` of arguments that agree. -/
theorem algebraic : Cert.algebraic_KernelIdeal_ReferenceIdeal := by
  intro m ρ m' ρ' _ hagree
  refine ⟨fun c => Cert.KernelIdeal.KValue.res0 m c, fun c => Cert.KernelIdeal.KValue.res1 m c,
    fun c => Cert.KernelIdeal.KValue.res2 m c, Cert.KernelIdeal.KValue.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9, a10, a11, a12, a13, a14, a15, a16, a17, a18, a19⟩ := hagree c
  have hagg : Cert.ReferenceIdeal.RefValue.agg (m ((c.tc : Thread Cert.KernelIdeal.nD Cert.KernelIdeal.τ).loc Cert.KernelIdeal.main_arg1))
      = Cert.KernelIdeal.KValue.agg (m ((c.tc : Thread Cert.KernelIdeal.nD Cert.KernelIdeal.τ).loc Cert.KernelIdeal.main_arg1)) :=
    funext fun h => agg_eq _ h
  refine ⟨h0.trans ?_, h1.trans ?_, h2.trans ?_, hargs⟩
  · rw [Cert.ReferenceIdeal.RefValue.out0 m' c, a0, a1, a2, a3, a4, a5, a6, a7, a8, a9, a10, a11, a12, a13, hagg]
    rfl
  · rw [Cert.ReferenceIdeal.RefValue.out1 m' c, a0, a1, a2, a3, a4, a5, a6, a7, a8, a9, a10, a14, a15, a16, hagg]
    rfl
  · rw [Cert.ReferenceIdeal.RefValue.out2 m' c, a0, a1, a2, a3, a4, a5, a6, a7, a8, a9, a10, a17, a18, a19, hagg]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
